-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S2x524288 : Shape := ⟨2, ![2, 524288]⟩
abbrev S128x128 : Shape := ⟨2, ![128, 128]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S16384x128 .f32) (main_arg1 : IVec S2x524288 32) (main_arg2 : FVec F S128x128 .f32) (main_arg3 : FVec F S128x128 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S16384x128 : Shape := ⟨2, ![16384, 128]⟩
abbrev S2x524288 : Shape := ⟨2, ![2, 524288]⟩
abbrev S128x128 : Shape := ⟨2, ![128, 128]⟩
abbrev S1x524288 : Shape := ⟨2, ![1, 524288]⟩
abbrev S524288 : Shape := ⟨1, ![524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S1024x4096 : Shape := ⟨2, ![1024, 4096]⟩
abbrev S4096x128 : Shape := ⟨2, ![4096, 128]⟩
abbrev S1024x128 : Shape := ⟨2, ![1024, 128]⟩
abbrev S1024x1 : Shape := ⟨2, ![1024, 1]⟩
abbrev S1024 : Shape := ⟨1, ![1024]⟩

abbrev nBuf : Space → Nat
  | .hbm => 33
  | .vmem => 12
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S128x128, .f32⟩
  | .hbm, ⟨3, _⟩ => ⟨S128x128, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S_, .bf16⟩
  | .hbm, ⟨9, _⟩ => ⟨S16384x16384, .bf16⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S524288x1, .i32⟩
  | .hbm, ⟨26, _⟩ => ⟨S524288x2, .i32⟩
  | .hbm, ⟨27, _⟩ => ⟨S_, .bf16⟩
  | .hbm, ⟨28, _⟩ => ⟨S524288, .bf16⟩
  | .hbm, ⟨29, _⟩ => ⟨S16384x16384, .bf16⟩
  | .hbm, ⟨30, _⟩ => ⟨S128x128, .f32⟩
  | .hbm, ⟨31, _⟩ => ⟨S128x128, .f32⟩
  | .hbm, ⟨32, _⟩ => ⟨S16384x128, .f32⟩
  | .local _ .vmem, ⟨0, _⟩ => ⟨S1024x4096, .bf16⟩
  | .local _ .vmem, ⟨1, _⟩ => ⟨S1024x4096, .bf16⟩
  | .local _ .vmem, ⟨2, _⟩ => ⟨S4096x128, .f32⟩
  | .local _ .vmem, ⟨3, _⟩ => ⟨S4096x128, .f32⟩
  | .local _ .vmem, ⟨4, _⟩ => ⟨S1024x128, .f32⟩
  | .local _ .vmem, ⟨5, _⟩ => ⟨S1024x128, .f32⟩
  | .local _ .vmem, ⟨6, _⟩ => ⟨S128x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  transposes_S128x128_S128x128_1_0 : S128x128.Transposes [1, 0] S128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  bitsLt_bf16_f32 : FTy.bits .bf16 < FTy.bits .f32
  reduces_S1024x4096_S1024 : S1024x4096.Reduces [1] S1024
  shapeCasts_S1024_S1024x1 : S1024.ShapeCasts S1024x1
  inb_S4096x128_S4096x128_0_0 : ∀ a, (![0, 0] : Fin 2 → Nat) a + S4096x128.size a ≤ S4096x128.size a
  h_S4096x128 : 0 < S4096x128.numel
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S16384x16384_S524288x2_S524288_n_01_01_1_wf : ScatterDims.WF S16384x16384 S524288x2 S524288 [] [0, 1] [0, 1] 1
  dot_S1024x4096_S4096x128_S1024x128_1_0_0_1_n_n_wf : DotDims.WF S1024x4096 S4096x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x16384.size a
  hwx0_0 : ∀ i : grid0.Coords, EltTy.bits .bf16 = 32 ∨ (Rect.block (s := S16384x16384) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S16384x128.size a
  hwx0_1 : ∀ i : grid0.Coords, EltTy.bits .f32 = 32 ∨ (Rect.block (s := S16384x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S16384x128.size a
  hwx0_2 : ∀ i : grid0.Coords, EltTy.bits .f32 = 32 ∨ (Rect.block (s := S16384x128) S1024x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S16384x128.size a
  hwx0_5 : ∀ i : grid0.Coords, EltTy.bits .f32 = 32 ∨ (Rect.block (s := S16384x128) S1024x128.size (cc0_transform_5 i) (hinb0_5 i)).WholeWords (EltTy.packing .f32)

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v19) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S16384x128 : Shape := ⟨2, ![16384, 128]⟩
abbrev S2x524288 : Shape := ⟨2, ![2, 524288]⟩
abbrev S128x128 : Shape := ⟨2, ![128, 128]⟩
abbrev S1x524288 : Shape := ⟨2, ![1, 524288]⟩
abbrev S524288 : Shape := ⟨1, ![524288]⟩
abbrev S_ : Shape := ⟨0, ![]⟩
abbrev S16384x16384 : Shape := ⟨2, ![16384, 16384]⟩
abbrev S524288x1 : Shape := ⟨2, ![524288, 1]⟩
abbrev S524288x2 : Shape := ⟨2, ![524288, 2]⟩
abbrev S16384 : Shape := ⟨1, ![16384]⟩
abbrev S16384x1 : Shape := ⟨2, ![16384, 1]⟩

abbrev nBuf : Space → Nat
  | .hbm => 47
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S2x524288, .i32⟩
  | .hbm, ⟨2, _⟩ => ⟨S128x128, .f32⟩
  | .hbm, ⟨3, _⟩ => ⟨S128x128, .f32⟩
  | .hbm, ⟨4, _⟩ => ⟨S1x524288, .i32⟩
  | .hbm, ⟨5, _⟩ => ⟨S524288, .i32⟩
  | .hbm, ⟨6, _⟩ => ⟨S1x524288, .i32⟩
  | .hbm, ⟨7, _⟩ => ⟨S524288, .i32⟩
  | .hbm, ⟨8, _⟩ => ⟨S_, .f32⟩
  | .hbm, ⟨9, _⟩ => ⟨S16384x16384, .f32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S_, .i32⟩
  | .hbm, ⟨18, _⟩ => ⟨S524288, .i32⟩
  | .hbm, ⟨19, _⟩ => ⟨S524288, .i1⟩
  | .hbm, ⟨20, _⟩ => ⟨S_, .i32⟩
  | .hbm, ⟨21, _⟩ => ⟨S524288, .i32⟩
  | .hbm, ⟨22, _⟩ => ⟨S524288, .i32⟩
  | .hbm, ⟨23, _⟩ => ⟨S524288, .i32⟩
  | .hbm, ⟨24, _⟩ => ⟨S524288x1, .i32⟩
  | .hbm, ⟨25, _⟩ => ⟨S524288x1, .i32⟩
  | .hbm, ⟨26, _⟩ => ⟨S524288x2, .i32⟩
  | .hbm, ⟨27, _⟩ => ⟨S_, .f32⟩
  | .hbm, ⟨28, _⟩ => ⟨S524288, .f32⟩
  | .hbm, ⟨29, _⟩ => ⟨S16384x16384, .f32⟩
  | .hbm, ⟨30, _⟩ => ⟨S_, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384, .f32⟩
  | .hbm, ⟨38, _⟩ => ⟨S16384x1, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S128x128, .f32⟩
  | .hbm, ⟨43, _⟩ => ⟨S16384x128, .f32⟩
  | .hbm, ⟨44, _⟩ => ⟨S128x128, .f32⟩
  | .hbm, ⟨45, _⟩ => ⟨S16384x128, .f32⟩
  | .hbm, ⟨46, _⟩ => ⟨S16384x128, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S16384x16384 : S_.BroadcastsInDim S16384x16384 (![] : Fin 0 → Fin S16384x16384.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x128_0_1 : S16384x1.BroadcastsInDim S16384x128 (![0, 1] : Fin 2 → Fin S16384x128.rank)
  transposes_S128x128_S128x128_1_0 : S128x128.Transposes [1, 0] S128x128
  scatter_S16384x16384_S524288x2_S524288_n_01_01_1_wf : ScatterDims.WF S16384x16384 S524288x2 S524288 [] [0, 1] [0, 1] 1
  dot_S16384x16384_S16384x128_S16384x128_1_0_0_1_n_n_wf : DotDims.WF S16384x16384 S16384x128 S16384x128 [1] [0] [0] [1] [] []
  dot_S16384x128_S128x128_S16384x128_1_0_0_1_n_n_wf : DotDims.WF S16384x128 S128x128 S16384x128 [1] [0] [0] [1] [] []

variable [Facts₀]

def scatter_S16384x16384_S524288x2_S524288_n_01_01_1 : ScatterDims S16384x16384 S524288x2 S524288 where
  updateWindowDims := []
  insertedWindowDims := [0, 1]
  scatterDimsToOperandDims := [0, 1]
  indexVectorDim := 1
  wf := scatter_S16384x16384_S524288x2_S524288_n_01_01_1_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

class Facts : Prop extends Facts₀ where

variable [Facts]
-- ==== Proof.KSetup.lean ====
/-
  What the three control cases of the graph-convolution kernel's body share: the program's host prefix (the dense
  adjacency scattered from the edge list, the two weight transposes) as the valuation the region is entered
  with, each window's block at a grid point read off that valuation, the two branch conditions of the body in closed
  form over the 16 x 4 grid (the reduction index is 0: reset the accumulators; it is 3: finish the row tile), where
  the output window is idle, and the staging and scratch memrefs by name.
-/
import proofs.«178954_j30494267802263_1_alg».proof.Proof.Gen.Kernel.Launch
import proofs.«178954_j30494267802263_1_alg».proof.Proof.Gen.Kernel.Skeleton
import proofs.«178954_j30494267802263_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The TensorCore buffers of core `c` when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry one and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry one and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions over the grid -/

/-- The first branch (reset the accumulators) is taken where the reduction index is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (finish the row tile) is taken where the reduction index is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second branch is not taken the body stores nothing into the output window, -/
theorem idleAt0_5 : ∀ t : Fin cfg0.N, ¬cond0_1 (grid0.coords t) → cfg0.idle 5 (grid0.coords t) = true := by decide +kernel
/-- and the pipeline does not write its block back there; -/
theorem noFlush0_5 : ∀ t : Fin cfg0.N, ¬cond0_1 (grid0.coords t) → (cfg0.win 5).flush t = false := by decide +kernel
/-- where it is taken the window is live. -/
theorem liveAt0_5 : ∀ t : Fin cfg0.N, cond0_1 (grid0.coords t) → cfg0.idle 5 (grid0.coords t) = false := by decide +kernel

/-! ## The memrefs the body is called with -/

/-- One staging buffer of the output window and the two scratch buffers as views: contents are stated through them. -/
abbrev VO0_5 : View sig .tc .vmem S1024x128 .f32 := (Memref.whole cc0_stg5_0 : Memref sig .tc .vmem S1024x128 .f32).view
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The accumulator of the aggregated rows and the accumulator of the row degrees. -/
abbrev scM0_0 : Memref sig .tc .vmem S1024x128 .f32 := Memref.whole cc0_scratch0
abbrev scM0_1 : Memref sig .tc .vmem S1024x1 .f32 := Memref.whole cc0_scratch1
abbrev VS0_0 : View sig .tc .vmem S1024x128 .f32 := scM0_0.view
abbrev VS0_1 : View sig .tc .vmem S1024x1 .f32 := scM0_1.view

/-- The scoped rest of the region is the two accumulators, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.Kernel.Hand

end
-- ==== Proof.KRunA.lean ====
/-
  The kernel body in the control case where the reduction index is 0: the accumulators are reset, then the first column tile is added; nothing is stored into the output window.
-/
import proofs.«178954_j30494267802263_1_alg».proof.Proof.KSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- In this case, on whole staging memrefs holding the input blocks, the body runs to its end and leaves the inputs as
    they were, the output buffer untouched, and each accumulator with the pieces its stores wrote (the pieces are
    found by running the body). -/
noncomputable def kernelRun0_A (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) :
    Σ' (L5 : List (View.Piece (Elt F) S1024x128 .f32)) (LS0 : List (View.Piece (Elt F) S1024x128 .f32)), { LS1 : List (View.Piece (Elt F) S1024x1 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨[], ?_, ?_, fun xi5 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.KRunB.lean ====
/-
  The kernel body in the control case where the reduction index is 1 or 2: a column tile is added to the accumulators carried from the point before; nothing is stored into the output window.
-/
import proofs.«178954_j30494267802263_1_alg».proof.Proof.KSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- In this case, on whole staging memrefs holding the input blocks, the body runs to its end and leaves the inputs as
    they were, the output buffer untouched, and each accumulator with the pieces its stores wrote (the pieces are
    found by running the body). -/
noncomputable def kernelRun0_B (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) :
    Σ' (L5 : List (View.Piece (Elt F) S1024x128 .f32)) (LS0 : List (View.Piece (Elt F) S1024x128 .f32)), { LS1 : List (View.Piece (Elt F) S1024x1 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨[], ?_, ?_, fun xi5 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Hand

end
-- ==== Proof.KRunC.lean ====
/-
  The kernel body in the control case where the reduction index is 3: the last column tile is added to the carried accumulators and the finished row tile is stored into the output window.
-/
import proofs.«178954_j30494267802263_1_alg».proof.Proof.KSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- In this case, on whole staging memrefs holding the input blocks, the body runs to its end and leaves the inputs as
    they were, the output buffer with the pieces its store wrote, and each accumulator with the pieces its stores wrote (the pieces are
    found by running the body). -/
noncomputable def kernelRun0_C (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) :
    Σ' (L5 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨?_, ?_, ?_, fun E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.Kernel.Hand

end
-- ==== Proof.KSplit.lean ====
/-
  The node features reach the kernel through two input windows on one array. At the region's entry the five distinct
  buffers behind the six windows' arrays are each held whole; the windows' arrays at the proof data's shares are made
  from them by splitting the node features' buffer into its two halves, one for the column-tile window and one for
  the row-tile window. Stated for any proof data with those shares whose arrays are the region-entry contents.
-/
import proofs.«178954_j30494267802263_1_alg».proof.Proof.KSetup

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hsplit_of {c : Dev nD} (dat : Dat τ (Elt F) Unit ℕ (UR sig nD τ) ℕ cfg0 c)
    (hA : ∀ w, dat.A w = V m c (Pipeline.arrRef spec0 w))
    (hq0 : dat.q 0 = fullShare) (hq1 : dat.q 1 = fullShare.left) (hq2 : dat.q 2 = fullShare.right)
    (hq3 : dat.q 3 = fullShare) (hq4 : dat.q 4 = fullShare) :
    Pipeline.arrBufs spec0 c (V m c) ⊢ dat.arrays (dat.arrAt · 0) := by
  have himg : Finset.univ.image (Pipeline.arrRef spec0) = ({main_v19, main_arg0, main_v20, main_v21, main_v22} : Finset (Ref sig .tc)) := by decide
  have hL : (Pipeline.arrBufs spec0 c (V m c) : sProp 𝕄)
      = iprop((((c.tc : Thread nD τ).loc main_v19) ↦{fullShare} V m c main_v19) ∗ (((c.tc : Thread nD τ).loc main_arg0) ↦{fullShare} V m c main_arg0)
        ∗ (((c.tc : Thread nD τ).loc main_v20) ↦{fullShare} V m c main_v20) ∗ (((c.tc : Thread nD τ).loc main_v21) ↦{fullShare} V m c main_v21)
        ∗ (((c.tc : Thread nD τ).loc main_v22) ↦{fullShare} V m c main_v22)) := by
    unfold Pipeline.arrBufs
    rw [himg, bigSep_insert (by decide), bigSep_insert (by decide), bigSep_insert (by decide), bigSep_insert (by decide), bigSep_singleton]
    rfl
  have hs0 : dat.share 0 = fullShare := by unfold Dat.share; rw [if_neg (by decide), hq0]
  have hs1 : dat.share 1 = fullShare.left := by unfold Dat.share; rw [if_neg (by decide), hq1]
  have hs2 : dat.share 2 = fullShare.right := by unfold Dat.share; rw [if_neg (by decide), hq2]
  have hs3 : dat.share 3 = fullShare := by unfold Dat.share; rw [if_neg (by decide), hq3]
  have hs4 : dat.share 4 = fullShare := by unfold Dat.share; rw [if_neg (by decide), hq4]
  have hs5 : dat.share 5 = fullShare := by unfold Dat.share; rw [if_pos (by decide)]
  have hR : dat.arrays (dat.arrAt · 0)
      = iprop((((c.tc : Thread nD τ).loc main_v19) ↦{fullShare} V m c main_v19) ∗ (((c.tc : Thread nD τ).loc main_arg0) ↦{fullShare.left} V m c main_arg0)
        ∗ (((c.tc : Thread nD τ).loc main_arg0) ↦{fullShare.right} V m c main_arg0)
        ∗ (((c.tc : Thread nD τ).loc main_v20) ↦{fullShare} V m c main_v20) ∗ (((c.tc : Thread nD τ).loc main_v21) ↦{fullShare} V m c main_v21)
        ∗ (((c.tc : Thread nD τ).loc main_v22) ↦{fullShare} V m c main_v22)) := by
    unfold Dat.arrays
    rw [bigSep_W0]
    rw [(arr_whole0 0).set_eq_univ, (arr_whole0 1).set_eq_univ, (arr_whole0 3).set_eq_univ, (arr_whole0 4).set_eq_univ, (arr_whole0 5).set_eq_univ]
    rw [hs0, hs1, hs2, hs3, hs4, hs5]
    show iprop((_ ↦{fullShare} dat.A 0) ∗ (_ ↦{fullShare.left} dat.A 1) ∗ (_ ↦{fullShare.right} dat.A 2) ∗ (_ ↦{fullShare} dat.A 3) ∗ (_ ↦{fullShare} dat.A 4) ∗ (_ ↦{fullShare} dat.A 5)) = _
    rw [hA 0, hA 1, hA 2, hA 3, hA 4, hA 5]
  rw [hL, hR]
  iintro ⟨H19, H0, H20, H21, H22⟩
  ihave H0' := (pointsTo_share (PosShare.mem_left_op_right fullShare)).1 $$ H0
  icases H0' with ⟨H0l, H0r⟩
  isplitl [H19]; · iexact H19
  isplitl [H0l]; · iexact H0l
  isplitl [H0r]; · iexact H0r
  isplitl [H20]; · iexact H20
  isplitl [H21]; · iexact H21
  iexact H22

end Cert.Kernel.Hand

end
-- ==== Proof.LibFrameSharedTrack.lean ====
/-
  A frame run for a kernel region whose input windows may share an array and whose body carries scratch
  contents from one grid point to the next.

  When one array is passed to a kernel through several input windows, the launch asks how the array's buffer, held
  whole at the region's entry, is divided among the windows on it (the entailment from the distinct buffers behind
  the arrays, each whole, to the windows' arrays at the proof data's shares). When the body also keeps values in
  its scratch buffers between points, the region invariant before point `t` names those values. This module states
  the frame run in that generality: the scoped rest (every scratch buffer at some contents) yields the invariant
  before the first point, and the invariant after the last point yields the scoped rest back. The conclusion is
  the library's frame post: every windowed array ends at what the proof data compute, every other unscoped buffer
  as the region found it.
-/
import Idealize.ShloMosaic.Lib.Pipeline.Frame

noncomputable section

namespace Cert.LibFrameSharedTrack

open Idealize.ShloMosaic Idealize.ShloMosaic.Pipeline
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run of one kernel region whose windows may share arrays, with a tracking invariant: from the body
    obligation at every point, the program's shape up to the region, the division of the arrays' buffers among the
    windows at entry, and a region invariant that the scoped rest yields before the first point and that yields the
    scoped rest after the last, every weakly fair execution terminates in the library's frame post. -/
theorem θ_run_frame_shared_track (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfgs p).spec c (V c) ⊢ (dats p c).arrays ((dats p c).arrAt · 0))
    (hin : ∀ c, scopedRest (Ix := Unit) (Name := ℕ) (U := UR sig nD τ) (Lvl := ℕ) (Val := Val) (cfgs p).spec c
      ⊢ (dats p c).Φ 0)
    (hout : ∀ c, (dats p c).Φ (Fin.last (cfgs p).N)
      ⊢ scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g)
      (FramePost cfgs dats p V) :=
  θ_run_region_noSem_shared cfgs dats () hinj p hw emb₁ defs₀ 𝒱₀ m g main hbody hne harr hstage howed
    (u₀ := initOf (cells cfgs hinj) (launchToks cfgs hinj)) (hu₀ := .rfl) (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H; isplitr; · iempintro
      iexact H)
    (hin := fun c => (show iprop(emp ∗ scopedRest (Ix := Unit) (Name := ℕ) (U := UR sig nD τ) (Lvl := ℕ) (Val := Val) (cfgs p).spec c)
        ⊢ scopedRest (Ix := Unit) (Name := ℕ) (U := UR sig nD τ) (Lvl := ℕ) (Val := Val) (cfgs p).spec c from by
      iintro ⟨-, H⟩; iexact H).trans (hin c))
    (hout := fun c => (hout c).trans (by
      iintro H; isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Cert.LibFrameSharedTrack

end
-- ==== Proof.KFrame.lean ====
/-
  The frame of the graph-convolution program: the dense adjacency is scattered on the host, the two weight
  matrices transposed, and one kernel region runs over a 16 x 4 grid (row tile, column tile). At each point the
  body adds the column tile's row sums to a degree accumulator and the tile's product with the node features to a
  row accumulator; at column tile 0 both are reset first, at column tile 3 the accumulated rows are scaled by the
  inverse clamped degrees, multiplied by the transposed weights, added to the self term and stored into the output
  block. The node features reach the kernel through two input windows (column tiles and row tiles of one array),
  so the array's buffer is divided between them at entry, half the share each.

  This module states what the accumulators and the output buffer hold after each point by recursion on the point,
  the proof data over it, the body obligation at a generic point (by the three control cases), and the run.
-/
import proofs.«178954_j30494267802263_1_alg».proof.Proof.KRunA
import proofs.«178954_j30494267802263_1_alg».proof.Proof.KRunB
import proofs.«178954_j30494267802263_1_alg».proof.Proof.KRunC
import proofs.«178954_j30494267802263_1_alg».proof.Proof.KSplit
import proofs.«178954_j30494267802263_1_alg».proof.Proof.LibFrameSharedTrack

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In this case the pieces stored into the row accumulator tile it. -/
theorem scover0_A_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) (y : S1024x128.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S1024x128.size (by sl_kernel_rfl) y

/-- What the case leaves in the row accumulator: its pieces read back. -/
def sout0_A_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)

/-- In this case the pieces stored into the degree accumulator tile it. -/
theorem scover0_A_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) (y : S1024x1.Idx) :
    ∃ pc ∈ (kernelRun0_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.2.1 S1024x1.size (by sl_kernel_rfl) y

/-- What the case leaves in the degree accumulator: its pieces read back. -/
def sout0_A_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3 x4).2.2.1)

/-- In this case the pieces stored into the row accumulator tile it. -/
theorem scover0_B_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) (y : S1024x128.Idx) :
    ∃ pc ∈ (kernelRun0_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0 xs1).2.1 S1024x128.size (by sl_kernel_rfl) y

/-- What the case leaves in the row accumulator: its pieces read back. -/
def sout0_B_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0 xs1).2.1)

/-- In this case the pieces stored into the degree accumulator tile it. -/
theorem scover0_B_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0 xs1).2.2.1 S1024x1.size (by sl_kernel_rfl) y

/-- What the case leaves in the degree accumulator: its pieces read back. -/
def sout0_B_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 x4 xs0 xs1).2.2.1)

/-- In this case the pieces stored into the row accumulator tile it. -/
theorem scover0_C_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.1 S1024x128.size (by sl_kernel_rfl) y

/-- What the case leaves in the row accumulator: its pieces read back. -/
def sout0_C_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0 xs1).2.1)

/-- In this case the pieces stored into the degree accumulator tile it. -/
theorem scover0_C_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.2.1 S1024x1.size (by sl_kernel_rfl) y

/-- What the case leaves in the degree accumulator: its pieces read back. -/
def sout0_C_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 x4 xs0 xs1).2.2.1)

/-- In the finishing case the piece stored into the output window tiles its block. -/
theorem cover0_C_5 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).1 S1024x128.size (by sl_kernel_rfl) y

/-- What the finishing case leaves in the output window's staging buffer: its piece read back. -/
def out0_C_5 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) : Vec F S1024x128 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0 xs1).1)

/-! ## What the accumulators and the output buffer hold after each point -/

/-- After a point with column tile 0: (nothing named for the output), the row accumulator, the degree accumulator. -/
def stepA (c : Dev nD) (t : Fin cfg0.N) (h0 : t.val % 4 = 0) (h1 : ¬t.val % 4 = 3) : Vec F S1024x128 .f32 × Vec F S1024x128 .f32 × Vec F S1024x1 .f32 :=
  (VO0_5.read (Elt F) VO0_5.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t))

/-- After a point with column tile 1 or 2, over the accumulators the point before left. -/
def stepB (c : Dev nD) (t : Fin cfg0.N) (h0 : ¬t.val % 4 = 0) (h1 : ¬t.val % 4 = 3) (xs0 : Vec F S1024x128 .f32) (xs1 : Vec F S1024x1 .f32) : Vec F S1024x128 .f32 × Vec F S1024x128 .f32 × Vec F S1024x1 .f32 :=
  (VO0_5.read (Elt F) VO0_5.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1)

/-- After a point with column tile 3, over the accumulators the point before left: the finished output block too. -/
def stepC (c : Dev nD) (t : Fin cfg0.N) (h0 : ¬t.val % 4 = 0) (h1 : t.val % 4 = 3) (xs0 : Vec F S1024x128 .f32) (xs1 : Vec F S1024x1 .f32) : Vec F S1024x128 .f32 × Vec F S1024x128 .f32 × Vec F S1024x1 .f32 :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1)

/-- The accumulation, by recursion on the point's position: the output buffer, the row accumulator, the degree accumulator. -/
def outsAt0 (c : Dev nD) : (n : ℕ) → n < cfg0.N → Vec F S1024x128 .f32 × Vec F S1024x128 .f32 × Vec F S1024x1 .f32
  | 0, hn => stepA m c ⟨0, hn⟩ (Nat.zero_mod _) (by show ¬ 0 % 4 = 3; decide)
  | n + 1, hn =>
    if h0 : (n + 1) % 4 = 0 then
      if h1 : (n + 1) % 4 = 3 then False.elim (by omega)
      else stepA m c ⟨n + 1, hn⟩ h0 h1
    else
      if h1 : (n + 1) % 4 = 3 then
        stepC m c ⟨n + 1, hn⟩ h0 h1 (outsAt0 c n (Nat.lt_of_succ_lt hn)).2.1 (outsAt0 c n (Nat.lt_of_succ_lt hn)).2.2
      else
        stepB m c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 4 = 0) :
    outsAt0 m c t.val t.isLt = stepA m c t h0 (by omega) := by
  obtain ⟨n, hn⟩ := t
  cases n with
  | zero => exact rfl
  | succ n => exact (dif_pos h0).trans ((dif_neg (by dsimp only at h0; omega)).trans rfl)

theorem outsAt0_B (c : Dev nD) (t : Fin cfg0.N) (h0 : ¬t.val % 4 = 0) (h1 : ¬t.val % 4 = 3) :
    outsAt0 m c t.val t.isLt = stepB m c t h0 h1 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = stepC m c t h0 h1 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point both accumulators at anything; afterwards each
    at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The proof data -/

/-- The proof data on core `c`: the arrays as the region finds them; after the body at point `t` each input's buffer
    at its block and the output's at the accumulation's first component; the invariant `PhiS`; the node features'
    array held half by its column-tile window and half by its row-tile window, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The division of the arrays' buffers among the windows -/

/-- At entry the five distinct buffers behind the six windows' arrays, each whole, make the windows' arrays at the
    proof data's shares. -/
theorem hsplit (c : Dev nD) : Pipeline.arrBufs spec0 c (V m c) ⊢ (dats m 0 c).arrays ((dats m 0 c).arrAt · 0) :=
  hsplit_of m (dats m 0 c) (A_eq m c) (by first | rfl | dsimp only [dats]) (by first | rfl | dsimp only [dats]) (by first | rfl | dsimp only [dats])
    (by first | rfl | dsimp only [dats]) (by first | rfl | dsimp only [dats])

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: each input's memref holds its block; the closed forms say which case the point is in; the
    invariant hands the body the accumulators at what the point before left (at anything at the first point) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · have h1 : ¬t.val % 4 = 3 := by omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_A m c t h0]
      unfold stepA sout0_A_0 sout0_A_1; (try dsimp only)
      by_cases hz : t.val = 0
      · rw [PhiS_castSucc m c t, PhiS_zero m c _ _ hz, scopedRest_eq]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold stepC out0_C_5 sout0_C_0 sout0_C_1; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold stepB sout0_B_0 sout0_B_1; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_eq]
  iintro ⟨HS0, HS1⟩
  isplitl [HS0]
  · iexists _; iexact HS0
  iexists _; iexact HS1

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Cert.LibFrameSharedTrack.θ_run_frame_shared_track cfgs (dats m) (0 : Fin 1) cellOf_inj winFacts₀0 block_pos0 arr_whole0 stage_whole0
    defs₀ Variants.none m ρ main
    (hbody := fun c => (body_obligation m c).loose)
    (howed := fun _ _ => rfl) (V := V m)
    (hmain := hmain m Variants.none) (hsplit := hsplit m) (hin := hin m) (hout := hout m)

/-- The frame: the four argument arrays end as launched (the node features by the library's reading of an input
    array, the edge list and the two weight matrices as buffers that bypass the region). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Hand

end
-- ==== Proof.KiSetup.lean ====
/-
  What the three control cases of the graph-convolution kernel's body share: the program's host prefix (the dense
  adjacency scattered from the edge list, the two weight transposes) as the valuation the region is entered
  with, each window's block at a grid point read off that valuation, the two branch conditions of the body in closed
  form over the 16 x 4 grid (the reduction index is 0: reset the accumulators; it is 3: finish the row tile), where
  the output window is idle, and the staging and scratch memrefs by name.
-/
import proofs.«178954_j30494267802263_1_alg».proof.Proof.Gen.KernelIdeal.Launch
import proofs.«178954_j30494267802263_1_alg».proof.Proof.Gen.KernelIdeal.Skeleton
import proofs.«178954_j30494267802263_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The TensorCore buffers of core `c` when the region is entered: after the host operations before it. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry one and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry one and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions over the grid -/

/-- The first branch (reset the accumulators) is taken where the reduction index is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (finish the row tile) is taken where the reduction index is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Where the second branch is not taken the body stores nothing into the output window, -/
theorem idleAt0_5 : ∀ t : Fin cfg0.N, ¬cond0_1 (grid0.coords t) → cfg0.idle 5 (grid0.coords t) = true := by decide +kernel
/-- and the pipeline does not write its block back there; -/
theorem noFlush0_5 : ∀ t : Fin cfg0.N, ¬cond0_1 (grid0.coords t) → (cfg0.win 5).flush t = false := by decide +kernel
/-- where it is taken the window is live. -/
theorem liveAt0_5 : ∀ t : Fin cfg0.N, cond0_1 (grid0.coords t) → cfg0.idle 5 (grid0.coords t) = false := by decide +kernel

/-! ## The memrefs the body is called with -/

/-- One staging buffer of the output window and the two scratch buffers as views: contents are stated through them. -/
abbrev VO0_5 : View sig .tc .vmem S1024x128 .f32 := (Memref.whole cc0_stg5_0 : Memref sig .tc .vmem S1024x128 .f32).view
abbrev ms0_0 (t : Fin cfg0.N) : Memref sig .tc .vmem S1024x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The accumulator of the aggregated rows and the accumulator of the row degrees. -/
abbrev scM0_0 : Memref sig .tc .vmem S1024x128 .f32 := Memref.whole cc0_scratch0
abbrev scM0_1 : Memref sig .tc .vmem S1024x1 .f32 := Memref.whole cc0_scratch1
abbrev VS0_0 : View sig .tc .vmem S1024x128 .f32 := scM0_0.view
abbrev VS0_1 : View sig .tc .vmem S1024x1 .f32 := scM0_1.view

/-- The scoped rest of the region is the two accumulators, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)) := by
  rw [scopedRest0_eq]; simp only [scM0_0, scM0_1, owns_whole]; try rfl

end Cert.KernelIdeal.Hand

end
-- ==== Proof.KiRunA.lean ====
/-
  The kernel body in the control case where the reduction index is 0: the accumulators are reset, then the first column tile is added; nothing is stored into the output window.
-/
import proofs.«178954_j30494267802263_1_alg».proof.Proof.KiSetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- In this case, on whole staging memrefs holding the input blocks, the body runs to its end and leaves the inputs as
    they were, the output buffer untouched, and each accumulator with the pieces its stores wrote (the pieces are
    found by running the body). -/
noncomputable def kernelRun0_A (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) :
    Σ' (L5 : List (View.Piece (Elt F) S1024x128 .f32)) (LS0 : List (View.Piece (Elt F) S1024x128 .f32)), { LS1 : List (View.Piece (Elt F) S1024x1 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨[], ?_, ?_, fun xi5 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KiRunB.lean ====
/-
  The kernel body in the control case where the reduction index is 1 or 2: a column tile is added to the accumulators carried from the point before; nothing is stored into the output window.
-/
import proofs.«178954_j30494267802263_1_alg».proof.Proof.KiSetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- In this case, on whole staging memrefs holding the input blocks, the body runs to its end and leaves the inputs as
    they were, the output buffer untouched, and each accumulator with the pieces its stores wrote (the pieces are
    found by running the body). -/
noncomputable def kernelRun0_B (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) :
    Σ' (L5 : List (View.Piece (Elt F) S1024x128 .f32)) (LS0 : List (View.Piece (Elt F) S1024x128 .f32)), { LS1 : List (View.Piece (Elt F) S1024x1 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨[], ?_, ?_, fun xi5 E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Hand

end
-- ==== Proof.KiRunC.lean ====
/-
  The kernel body in the control case where the reduction index is 3: the last column tile is added to the carried accumulators and the finished row tile is stored into the output window.
-/
import proofs.«178954_j30494267802263_1_alg».proof.Proof.KiSetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- In this case, on whole staging memrefs holding the input blocks, the body runs to its end and leaves the inputs as
    they were, the output buffer with the pieces its store wrote, and each accumulator with the pieces its stores wrote (the pieces are
    found by running the body). -/
noncomputable def kernelRun0_C (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) :
    Σ' (L5 : List (View.Piece (Elt F) S1024x128 .f32)) (LS0 : List (View.Piece (Elt F) S1024x128 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gconv_kernel i arg2 harg2 arg3 harg3 arg4 harg4 arg5 harg5 arg6 harg6 arg7 harg7 arg8 harg8 arg9 harg9) K } := by
  refine ⟨?_, ?_, ?_, fun E K => ?run⟩
  case run =>
    simp only [cc0__gconv_kernel_eq_skeleton]; unfold cc0__gconv_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Hand

end
-- ==== Proof.KiSplit.lean ====
/-
  The node features reach the kernel through two input windows on one array. At the region's entry the five distinct
  buffers behind the six windows' arrays are each held whole; the windows' arrays at the proof data's shares are made
  from them by splitting the node features' buffer into its two halves, one for the column-tile window and one for
  the row-tile window. Stated for any proof data with those shares whose arrays are the region-entry contents.
-/
import proofs.«178954_j30494267802263_1_alg».proof.Proof.KiSetup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hsplit_of {c : Dev nD} (dat : Dat τ (Elt F) Unit ℕ (UR sig nD τ) ℕ cfg0 c)
    (hA : ∀ w, dat.A w = V m c (Pipeline.arrRef spec0 w))
    (hq0 : dat.q 0 = fullShare) (hq1 : dat.q 1 = fullShare.left) (hq2 : dat.q 2 = fullShare.right)
    (hq3 : dat.q 3 = fullShare) (hq4 : dat.q 4 = fullShare) :
    Pipeline.arrBufs spec0 c (V m c) ⊢ dat.arrays (dat.arrAt · 0) := by
  have himg : Finset.univ.image (Pipeline.arrRef spec0) = ({main_v19, main_arg0, main_v20, main_v21, main_v22} : Finset (Ref sig .tc)) := by decide
  have hL : (Pipeline.arrBufs spec0 c (V m c) : sProp 𝕄)
      = iprop((((c.tc : Thread nD τ).loc main_v19) ↦{fullShare} V m c main_v19) ∗ (((c.tc : Thread nD τ).loc main_arg0) ↦{fullShare} V m c main_arg0)
        ∗ (((c.tc : Thread nD τ).loc main_v20) ↦{fullShare} V m c main_v20) ∗ (((c.tc : Thread nD τ).loc main_v21) ↦{fullShare} V m c main_v21)
        ∗ (((c.tc : Thread nD τ).loc main_v22) ↦{fullShare} V m c main_v22)) := by
    unfold Pipeline.arrBufs
    rw [himg, bigSep_insert (by decide), bigSep_insert (by decide), bigSep_insert (by decide), bigSep_insert (by decide), bigSep_singleton]
    rfl
  have hs0 : dat.share 0 = fullShare := by unfold Dat.share; rw [if_neg (by decide), hq0]
  have hs1 : dat.share 1 = fullShare.left := by unfold Dat.share; rw [if_neg (by decide), hq1]
  have hs2 : dat.share 2 = fullShare.right := by unfold Dat.share; rw [if_neg (by decide), hq2]
  have hs3 : dat.share 3 = fullShare := by unfold Dat.share; rw [if_neg (by decide), hq3]
  have hs4 : dat.share 4 = fullShare := by unfold Dat.share; rw [if_neg (by decide), hq4]
  have hs5 : dat.share 5 = fullShare := by unfold Dat.share; rw [if_pos (by decide)]
  have hR : dat.arrays (dat.arrAt · 0)
      = iprop((((c.tc : Thread nD τ).loc main_v19) ↦{fullShare} V m c main_v19) ∗ (((c.tc : Thread nD τ).loc main_arg0) ↦{fullShare.left} V m c main_arg0)
        ∗ (((c.tc : Thread nD τ).loc main_arg0) ↦{fullShare.right} V m c main_arg0)
        ∗ (((c.tc : Thread nD τ).loc main_v20) ↦{fullShare} V m c main_v20) ∗ (((c.tc : Thread nD τ).loc main_v21) ↦{fullShare} V m c main_v21)
        ∗ (((c.tc : Thread nD τ).loc main_v22) ↦{fullShare} V m c main_v22)) := by
    unfold Dat.arrays
    rw [bigSep_W0]
    rw [(arr_whole0 0).set_eq_univ, (arr_whole0 1).set_eq_univ, (arr_whole0 3).set_eq_univ, (arr_whole0 4).set_eq_univ, (arr_whole0 5).set_eq_univ]
    rw [hs0, hs1, hs2, hs3, hs4, hs5]
    show iprop((_ ↦{fullShare} dat.A 0) ∗ (_ ↦{fullShare.left} dat.A 1) ∗ (_ ↦{fullShare.right} dat.A 2) ∗ (_ ↦{fullShare} dat.A 3) ∗ (_ ↦{fullShare} dat.A 4) ∗ (_ ↦{fullShare} dat.A 5)) = _
    rw [hA 0, hA 1, hA 2, hA 3, hA 4, hA 5]
  rw [hL, hR]
  iintro ⟨H19, H0, H20, H21, H22⟩
  ihave H0' := (pointsTo_share (PosShare.mem_left_op_right fullShare)).1 $$ H0
  icases H0' with ⟨H0l, H0r⟩
  isplitl [H19]; · iexact H19
  isplitl [H0l]; · iexact H0l
  isplitl [H0r]; · iexact H0r
  isplitl [H20]; · iexact H20
  isplitl [H21]; · iexact H21
  iexact H22

end Cert.KernelIdeal.Hand

end
-- ==== Proof.KiFrame.lean ====
/-
  The frame of the graph-convolution program: the dense adjacency is scattered on the host, the two weight
  matrices transposed, and one kernel region runs over a 16 x 4 grid (row tile, column tile). At each point the
  body adds the column tile's row sums to a degree accumulator and the tile's product with the node features to a
  row accumulator; at column tile 0 both are reset first, at column tile 3 the accumulated rows are scaled by the
  inverse clamped degrees, multiplied by the transposed weights, added to the self term and stored into the output
  block. The node features reach the kernel through two input windows (column tiles and row tiles of one array),
  so the array's buffer is divided between them at entry, half the share each.

  This module states what the accumulators and the output buffer hold after each point by recursion on the point,
  the proof data over it, the body obligation at a generic point (by the three control cases), and the run.
-/
import proofs.«178954_j30494267802263_1_alg».proof.Proof.KiRunA
import proofs.«178954_j30494267802263_1_alg».proof.Proof.KiRunB
import proofs.«178954_j30494267802263_1_alg».proof.Proof.KiRunC
import proofs.«178954_j30494267802263_1_alg».proof.Proof.KiSplit
import proofs.«178954_j30494267802263_1_alg».proof.Proof.LibFrameSharedTrack

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- In this case the pieces stored into the row accumulator tile it. -/
theorem scover0_A_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) (y : S1024x128.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S1024x128.size (by sl_kernel_rfl) y

/-- What the case leaves in the row accumulator: its pieces read back. -/
def sout0_A_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) : Vec F S1024x128 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)

/-- In this case the pieces stored into the degree accumulator tile it. -/
theorem scover0_A_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) (y : S1024x1.Idx) :
    ∃ pc ∈ (kernelRun0_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.2.1 S1024x1.size (by sl_kernel_rfl) y

/-- What the case leaves in the degree accumulator: its pieces read back. -/
def sout0_A_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) : Vec F S1024x1 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3 x4).2.2.1)

/-- In this case the pieces stored into the row accumulator tile it. -/
theorem scover0_B_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) (y : S1024x128.Idx) :
    ∃ pc ∈ (kernelRun0_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0 xs1).2.1 S1024x128.size (by sl_kernel_rfl) y

/-- What the case leaves in the row accumulator: its pieces read back. -/
def sout0_B_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) : Vec F S1024x128 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0 xs1).2.1)

/-- In this case the pieces stored into the degree accumulator tile it. -/
theorem scover0_B_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0 xs1).2.2.1 S1024x1.size (by sl_kernel_rfl) y

/-- What the case leaves in the degree accumulator: its pieces read back. -/
def sout0_B_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 x4 xs0 xs1).2.2.1)

/-- In this case the pieces stored into the row accumulator tile it. -/
theorem scover0_C_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.1 S1024x128.size (by sl_kernel_rfl) y

/-- What the case leaves in the row accumulator: its pieces read back. -/
def sout0_C_0 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) : Vec F S1024x128 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0 xs1).2.1)

/-- In this case the pieces stored into the degree accumulator tile it. -/
theorem scover0_C_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.2.1 S1024x1.size (by sl_kernel_rfl) y

/-- What the case leaves in the degree accumulator: its pieces read back. -/
def sout0_C_1 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) : Vec F S1024x1 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 x4 xs0 xs1).2.2.1)

/-- In the finishing case the piece stored into the output window tiles its block. -/
theorem cover0_C_5 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).1 S1024x128.size (by sl_kernel_rfl) y

/-- What the finishing case leaves in the output window's staging buffer: its piece read back. -/
def out0_C_5 (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) : Vec F S1024x128 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0 xs1).1)

/-! ## What the accumulators and the output buffer hold after each point -/

/-- After a point with column tile 0: (nothing named for the output), the row accumulator, the degree accumulator. -/
def stepA (c : Dev nD) (t : Fin cfg0.N) (h0 : t.val % 4 = 0) (h1 : ¬t.val % 4 = 3) : Vec F S1024x128 .f32 × Vec F S1024x128 .f32 × Vec F S1024x1 .f32 :=
  (VO0_5.read (Elt F) VO0_5.junk,
   sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t),
   sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t))

/-- After a point with column tile 1 or 2, over the accumulators the point before left. -/
def stepB (c : Dev nD) (t : Fin cfg0.N) (h0 : ¬t.val % 4 = 0) (h1 : ¬t.val % 4 = 3) (xs0 : Vec F S1024x128 .f32) (xs1 : Vec F S1024x1 .f32) : Vec F S1024x128 .f32 × Vec F S1024x128 .f32 × Vec F S1024x1 .f32 :=
  (VO0_5.read (Elt F) VO0_5.junk,
   sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1,
   sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) xs0 xs1)

/-- After a point with column tile 3, over the accumulators the point before left: the finished output block too. -/
def stepC (c : Dev nD) (t : Fin cfg0.N) (h0 : ¬t.val % 4 = 0) (h1 : t.val % 4 = 3) (xs0 : Vec F S1024x128 .f32) (xs1 : Vec F S1024x1 .f32) : Vec F S1024x128 .f32 × Vec F S1024x128 .f32 × Vec F S1024x1 .f32 :=
  (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1,
   sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1,
   sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) xs0 xs1)

/-- The accumulation, by recursion on the point's position: the output buffer, the row accumulator, the degree accumulator. -/
def outsAt0 (c : Dev nD) : (n : ℕ) → n < cfg0.N → Vec F S1024x128 .f32 × Vec F S1024x128 .f32 × Vec F S1024x1 .f32
  | 0, hn => stepA m c ⟨0, hn⟩ (Nat.zero_mod _) (by show ¬ 0 % 4 = 3; decide)
  | n + 1, hn =>
    if h0 : (n + 1) % 4 = 0 then
      if h1 : (n + 1) % 4 = 3 then False.elim (by omega)
      else stepA m c ⟨n + 1, hn⟩ h0 h1
    else
      if h1 : (n + 1) % 4 = 3 then
        stepC m c ⟨n + 1, hn⟩ h0 h1 (outsAt0 c n (Nat.lt_of_succ_lt hn)).2.1 (outsAt0 c n (Nat.lt_of_succ_lt hn)).2.2
      else
        stepB m c ⟨n + 1, hn⟩ h0 h1 (outsAt0 c n (Nat.lt_of_succ_lt hn)).2.1 (outsAt0 c n (Nat.lt_of_succ_lt hn)).2.2

theorem outsAt0_A (c : Dev nD) (t : Fin cfg0.N) (h0 : t.val % 4 = 0) :
    outsAt0 m c t.val t.isLt = stepA m c t h0 (by omega) := by
  obtain ⟨n, hn⟩ := t
  cases n with
  | zero => exact rfl
  | succ n => exact (dif_pos h0).trans ((dif_neg (by dsimp only at h0; omega)).trans rfl)

theorem outsAt0_B (c : Dev nD) (t : Fin cfg0.N) (h0 : ¬t.val % 4 = 0) (h1 : ¬t.val % 4 = 3) :
    outsAt0 m c t.val t.isLt = stepB m c t h0 h1 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = stepC m c t h0 h1 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point both accumulators at anything; afterwards each
    at what the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((outsAt0 m c n hn).2.1) ∗ owns (c : Thread nD τ) scM0_1 fullShare ((outsAt0 m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scM0_0 fullShare ((outsAt0 m c n hn).2.1) ∗ owns (c : Thread nD τ) scM0_1 fullShare ((outsAt0 m c n hn).2.2)) := rfl

theorem PhiS_pos (c : Dev nD) (n : ℕ) (h : n ≤ cfg0.N) (hz : n ≠ 0) :
    PhiS m c n h = iprop(owns (c : Thread nD τ) scM0_0 fullShare ((outsAt0 m c (n - 1) (by omega)).2.1) ∗ owns (c : Thread nD τ) scM0_1 fullShare ((outsAt0 m c (n - 1) (by omega)).2.2)) := by
  cases n with
  | zero => exact absurd rfl hz
  | succ n => rfl

/-! ## The proof data -/

/-- The proof data on core `c`: the arrays as the region finds them; after the body at point `t` each input's buffer
    at its block and the output's at the accumulation's first component; the invariant `PhiS`; the node features'
    array held half by its column-tile window and half by its row-tile window, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The division of the arrays' buffers among the windows -/

/-- At entry the five distinct buffers behind the six windows' arrays, each whole, make the windows' arrays at the
    proof data's shares. -/
theorem hsplit (c : Dev nD) : Pipeline.arrBufs spec0 c (V m c) ⊢ (dats m 0 c).arrays ((dats m 0 c).arrAt · 0) :=
  hsplit_of m (dats m 0 c) (A_eq m c) (by first | rfl | dsimp only [dats]) (by first | rfl | dsimp only [dats]) (by first | rfl | dsimp only [dats])
    (by first | rfl | dsimp only [dats]) (by first | rfl | dsimp only [dats])

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 8000000 in
/-- The body at any point: each input's memref holds its block; the closed forms say which case the point is in; the
    invariant hands the body the accumulators at what the point before left (at anything at the first point) and takes
    them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 4 = 0
  · have h1 : ¬t.val % 4 = 3 := by omega
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_A m c t h0]
      unfold stepA sout0_A_0 sout0_A_1; (try dsimp only)
      by_cases hz : t.val = 0
      · rw [PhiS_castSucc m c t, PhiS_zero m c _ _ hz, scopedRest_eq]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 4 = 3
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold stepC out0_C_5 sout0_C_0 sout0_C_1; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        iintro ⟨H0, H1, H2, H3, H4, ⟨%e5, H5⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _)
    ·
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold stepB sout0_B_0 sout0_B_1; (try dsimp only)
      by_cases hz : t.val = 0
      · exfalso; omega
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), scopedRest_eq]
  iintro ⟨HS0, HS1⟩
  isplitl [HS0]
  · iexists _; iexact HS0
  iexists _; iexact HS1

/-! ## The run and the frame -/

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Cert.LibFrameSharedTrack.θ_run_frame_shared_track cfgs (dats m) (0 : Fin 1) cellOf_inj winFacts₀0 block_pos0 arr_whole0 stage_whole0
    defs₀ Variants.none m ρ main
    (hbody := fun c => (body_obligation m c).loose)
    (howed := fun _ _ => rfl) (V := V m)
    (hmain := hmain m Variants.none) (hsplit := hsplit m) (hin := hin m) (hout := hout m)

/-- The frame: the four argument arrays end as launched (the node features by the library's reading of an input
    array, the edge list and the two weight matrices as buffers that bypass the region). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Hand

end
-- ==== Proof.KiPieces.lean ====
/-
  What each control case of the body leaves in the two accumulators and in the output buffer, as values: each buffer
  is stored whole, so what it holds afterwards is the payload of its last store, whose loads read whole buffers —
  the column tile's row sums added to the degree accumulator, the tile's product with the node features added to the
  row accumulator (each over the zero block where the reduction index is 0), and, where the reduction index is 3, the
  finished output block computed from the two accumulators just updated.
-/
import proofs.«178954_j30494267802263_1_alg».proof.Proof.KiFrame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

theorem soutB_0_eq (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) :
    sout0_B_0 c i arg2 harg2 arg3 harg3 arg4 harg4 arg5 harg5 arg6 harg6 arg7 harg7 arg8 harg8 arg9 harg9 hc0 hc1 x0 x1 x2 x3 x4 xs0 xs1 = k0_pay5 x0 x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  rw [View.canon_unit_zero hz]
  simp only [View.readAt_eq_ld, harg2.read_unread, harg3.read_unread, harg4.read_unread, harg5.read_unread, harg6.read_unread, harg8.read_unread, harg9.read_unread, View.ld_unit_zero (S := S1024x4096) hz, View.ld_unit_zero (S := S4096x128) hz, View.ld_unit_zero (S := S1024x128) hz, View.ld_unit_zero (S := S1024x1) hz, View.ld_unit_zero (S := S128x128) hz]

theorem soutB_1_eq (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : ¬cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) :
    sout0_B_1 c i arg2 harg2 arg3 harg3 arg4 harg4 arg5 harg5 arg6 harg6 arg7 harg7 arg8 harg8 arg9 harg9 hc0 hc1 x0 x1 x2 x3 x4 xs0 xs1 = k0_pay4 x0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  rw [View.canon_unit_zero hz]
  simp only [View.readAt_eq_ld, harg2.read_unread, harg3.read_unread, harg4.read_unread, harg5.read_unread, harg6.read_unread, harg8.read_unread, harg9.read_unread, View.ld_unit_zero (S := S1024x4096) hz, View.ld_unit_zero (S := S4096x128) hz, View.ld_unit_zero (S := S1024x128) hz, View.ld_unit_zero (S := S1024x1) hz, View.ld_unit_zero (S := S128x128) hz]

theorem soutC_0_eq (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) :
    sout0_C_0 c i arg2 harg2 arg3 harg3 arg4 harg4 arg5 harg5 arg6 harg6 arg7 harg7 arg8 harg8 arg9 harg9 hc0 hc1 x0 x1 x2 x3 x4 xs0 xs1 = k0_pay5 x0 x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S1024x4096) hz, View.ld_unit_zero (S := S4096x128) hz, View.ld_unit_zero (S := S1024x128) hz, View.ld_unit_zero (S := S1024x1) hz, View.ld_unit_zero (S := S128x128) hz]

theorem soutC_1_eq (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) :
    sout0_C_1 c i arg2 harg2 arg3 harg3 arg4 harg4 arg5 harg5 arg6 harg6 arg7 harg7 arg8 harg8 arg9 harg9 hc0 hc1 x0 x1 x2 x3 x4 xs0 xs1 = k0_pay4 x0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  simp only [View.readAt_eq_ld, harg2.read_unread, harg3.read_unread, harg4.read_unread, harg5.read_unread, harg6.read_unread, harg8.read_unread, harg9.read_unread, View.ld_unit_zero (S := S1024x4096) hz, View.ld_unit_zero (S := S4096x128) hz, View.ld_unit_zero (S := S1024x128) hz, View.ld_unit_zero (S := S1024x1) hz, View.ld_unit_zero (S := S128x128) hz]

theorem outC_5_eq (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : ¬cond0_0 i) (hc1 : cond0_1 i)
    (x0 : Vec F S1024x4096 .bf16) (x1 : Vec F S4096x128 .f32) (x2 : Vec F S1024x128 .f32) (x3 : Vec F S128x128 .f32) (x4 : Vec F S128x128 .f32) (xs0 : Vec F S1024x128 .f32) (xs1 : Vec F S1024x1 .f32) :
    out0_C_5 c i arg2 harg2 arg3 harg3 arg4 harg4 arg5 harg5 arg6 harg6 arg7 harg7 arg8 harg8 arg9 harg9 hc0 hc1 x0 x1 x2 x3 x4 xs0 xs1 = k0_pay6 (k0_pay4 x0 xs1) (k0_pay5 x0 x1 xs0) x2 x3 x4 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero hz]
  rw [View.readCov_unit_zero (S := S1024x1) _ hz, View.readCov_unit_zero (S := S1024x128) _ hz]
  simp only [View.readAt_eq_ld, harg2.read_unread, harg3.read_unread, harg4.read_unread, harg5.read_unread, harg6.read_unread, harg8.read_unread, harg9.read_unread, View.ld_unit_zero (S := S1024x4096) hz, View.ld_unit_zero (S := S4096x128) hz, View.ld_unit_zero (S := S1024x128) hz, View.ld_unit_zero (S := S1024x1) hz, View.ld_unit_zero (S := S128x128) hz]

theorem soutA_0_eq (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) :
    sout0_A_0 c i arg2 harg2 arg3 harg3 arg4 harg4 arg5 harg5 arg6 harg6 arg7 harg7 arg8 harg8 arg9 harg9 hc0 hc1 x0 x1 x2 x3 x4 = k0_pay5 x0 x1 k0_pay1 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x128) hz, View.readCov_unit_zero (S := S1024x128) _ hz]
  simp only [View.readAt_eq_ld, harg2.read_unread, harg3.read_unread, harg4.read_unread, harg5.read_unread, harg6.read_unread, harg8.read_unread, harg9.read_unread, View.ld_unit_zero (S := S1024x4096) hz, View.ld_unit_zero (S := S4096x128) hz, View.ld_unit_zero (S := S1024x128) hz, View.ld_unit_zero (S := S1024x1) hz, View.ld_unit_zero (S := S128x128) hz]

theorem soutA_1_eq (c : Dev nD) (i : grid0.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x1 .f32) (harg9 : arg9.IsWhole) (hc0 : cond0_0 i) (hc1 : ¬cond0_1 i)
    (x0 : Vec F S1024x4096 .bf16) (x1 : Vec F S4096x128 .f32) (x2 : Vec F S1024x128 .f32) (x3 : Vec F S128x128 .f32) (x4 : Vec F S128x128 .f32) :
    sout0_A_1 c i arg2 harg2 arg3 harg3 arg4 harg4 arg5 harg5 arg6 harg6 arg7 harg7 arg8 harg8 arg9 harg9 hc0 hc1 x0 x1 x2 x3 x4 = k0_pay4 x0 k0_pay2 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg6.read_unread, harg8.read_unread, harg9.read_unread, View.ld_unit_zero (S := S1024x4096) hz, View.ld_unit_zero (S := S4096x128) hz, View.ld_unit_zero (S := S1024x128) hz, View.ld_unit_zero (S := S1024x1) hz, View.ld_unit_zero (S := S128x128) hz]

end Cert.KernelIdeal.Hand

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.KiPay.lean ====
/-
  The body's arithmetic read at an index, at the exact instance (floats extended reals, every operation exact, a
  change of format the identity): the zero blocks the accumulators are reset to; the column tile's row sum added to
  the degree accumulator; the column tile's product with the node features added to the row accumulator; and the
  finished output entry: the sum over the 128 features of (1 / max(degree, 1) times the accumulated row) times the
  transposed weight, plus the self term, the row of node features times the second transposed weight.
-/
import proofs.«178954_j30494267802263_1_alg».proof.Proof.Gen.KernelIdeal.Skeleton
import proofs.«178954_j30494267802263_1_alg».proof.Proof.LibKeepdims
import proofs.«178954_j30494267802263_1_alg».proof.Proof.LibMatmulRows
import Idealize.ShloMosaic.Lib.Pipeline.Value
import Idealize.ShloMosaic.Lib.ValueIdx
import Idealize.ShloMosaic.PureOps.Ideal.Laws

noncomputable section

namespace Cert.KernelIdeal.Pay

open Idealize.ShloMosaic Idealize.ShloMosaic.ValueIdx
open Cert.KernelIdeal Cert.KernelIdeal.Gen

/-- A reduced row index with the column put back. -/
theorem lift_row (h : S1024x4096.Reduces [1] S1024) (r : Fin 1024) (k : Fin (S1024x4096.size 1)) :
    h.lift (ix1 r) k = ix2 r (⟨k.val, k.isLt⟩ : Fin 4096) := by
  funext c; apply Fin.ext
  fin_cases c <;> rfl

/-- The row accumulator is reset to the zero block. -/
theorem pay1_apply (i : S1024x128.Idx) : k0_pay1 (F := Ideal) i = 0 := by
  unfold k0_pay1
  rw [shapeCast_self]
  show Ideal.ofBits .f32 0x00000000#32 = 0
  exact Ideal.ofBits_zero_f32

/-- The degree accumulator is reset to the zero block. -/
theorem pay2_apply (i : S1024x1.Idx) : k0_pay2 (F := Ideal) i = 0 := by
  unfold k0_pay2
  rw [shapeCast_self]
  show Ideal.ofBits .f32 0x00000000#32 = 0
  exact Ideal.ofBits_zero_f32

/-- The degree accumulator after a point: what it held plus the row sum of the column tile. -/
theorem pay4_apply (x0 : FVec Ideal S1024x4096 .bf16) (xs1 : FVec Ideal S1024x1 .f32) (r : Fin 1024) (u : Fin 1) :
    k0_pay4 x0 xs1 (ix2 r u) = xs1 (ix2 r u) + ∑ j : Fin 4096, x0 (ix2 r j) := by
  unfold k0_pay4 k0_pay3
  rw [shapeCast_self, shapeCast_self]
  show xs1 (ix2 r u) + _ = _
  refine congrArg (xs1 (ix2 r u) + ·) ?_
  refine (Cert.LibKeepdims.shapeCast_a_a1_apply _ _ r u).trans ?_
  refine (Ideal.multiReduction_add_single _ 0x00000000#32 reduces_S1024x4096_S1024 (.inl rfl) rfl (ix1 r)).trans ?_
  refine Finset.sum_congr rfl fun j _ => ?_
  show x0 (reduces_S1024x4096_S1024.lift (ix1 r) j) = x0 (ix2 r j)
  rw [lift_row]
  rfl

/-- The row accumulator after a point: what it held plus the column tile's product with the node features' tile. -/
theorem pay5_apply (x0 : FVec Ideal S1024x4096 .bf16) (x1 : FVec Ideal S4096x128 .f32) (xs0 : FVec Ideal S1024x128 .f32)
    (r : Fin 1024) (a : Fin 128) :
    k0_pay5 x0 x1 xs0 (ix2 r a) = xs0 (ix2 r a) + ∑ j : Fin 4096, x0 (ix2 r j) * x1 (ix2 j a) := by
  unfold k0_pay5 k0_pay3
  rw [shapeCast_self, shapeCast_self]
  show xs0 (ix2 r a) + _ = _
  refine congrArg (xs0 (ix2 r a) + ·) ?_
  exact Cert.LibMatmulRows.matmul_zero_ix2 dot_S1024x4096_S4096x128_S1024x128_1_0_0_1_n_n (by decide) (by decide)
    (fun _ _ => rfl) (fun _ _ => rfl) (fun _ _ => rfl) (fun _ _ => rfl) none x0 _ r a

/-- The finished output entry. -/
theorem pay6_apply (d : FVec Ideal S1024x1 .f32) (acc : FVec Ideal S1024x128 .f32) (x2 : FVec Ideal S1024x128 .f32)
    (x3 x4 : FVec Ideal S128x128 .f32) (r : Fin 1024) (cc : Fin 128) :
    k0_pay6 (F := Ideal) d acc x2 x3 x4 (ix2 r cc)
      = (∑ a : Fin 128, (Ideal.div (Ideal.ofBits .f32 0x3F800000#32) (max (d (ix2 r (0 : Fin 1))) (Ideal.ofBits .f32 0x3F800000#32)) * acc (ix2 r a)) * x3 (ix2 a cc))
        + ∑ a : Fin 128, x2 (ix2 r a) * x4 (ix2 a cc) := by
  unfold k0_pay6
  rw [shapeCast_self, shapeCast_self]
  show _ + _ = _
  refine congrArg₂ (· + ·) ?_ ?_
  · refine (Cert.LibMatmulRows.matmul_zero_ix2 dot_S1024x128_S128x128_S1024x128_1_0_0_1_n_n (by decide) (by decide)
      (fun _ _ => rfl) (fun _ _ => rfl) (fun _ _ => rfl) (fun _ _ => rfl) none _ _ r cc).trans ?_
    refine Finset.sum_congr rfl fun a _ => ?_
    refine congrArg (· * x3 (ix2 a cc)) ?_
    show broadcastTo S1024x128 _ broadcasts_S1024x1_S1024x128 (ix2 r a) * acc (ix2 r a) = _
    rw [Cert.LibKeepdims.broadcastTo_a1_ab_apply _ _ r a]
    rfl
  · exact Cert.LibMatmulRows.matmul_zero_ix2 dot_S1024x128_S128x128_S1024x128_1_0_0_1_n_n (by decide) (by decide)
      (fun _ _ => rfl) (fun _ _ => rfl) (fun _ _ => rfl) (fun _ _ => rfl) none _ _ r cc

end Cert.KernelIdeal.Pay

end
-- ==== Proof.KiBlocks.lean ====
/-
  The blocks of the graph-convolution kernel's windows at a grid point, entry by entry.

  Point t of the 16 x 4 grid works on row tile t / 4 and column tile t % 4: its adjacency block holds rows
  1024 (t / 4) + r and columns 4096 (t % 4) + j, its column-tile block of the node features rows 4096 (t % 4) + j,
  its row-tile block rows 1024 (t / 4) + r; the two weight blocks are the whole transposed matrices.
-/
import proofs.«178954_j30494267802263_1_alg».proof.Proof.KiPieces
import proofs.«178954_j30494267802263_1_alg».proof.Proof.KiPay

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Pay

variable (m : (ℓ : Loc nD τ sig) → Buf (Elt Ideal) ℓ) (ρ : Dev nD → PrngReg)

/-- The array row of block row `r` in row tile `q`. -/
def rowOf (q : ℕ) (r : Fin 1024) : Fin 16384 := ⟨(1024 * q + r.val) % 16384, Nat.mod_lt _ (by norm_num)⟩

/-- The printed index maps over the grid: the row tile is t / 4, the column tile t % 4. -/
theorem idx_facts : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 4 ∧ win0_5.index t (1 : Fin 2) = 0 :=
  (by decide +kernel : ∀ t : Fin grid0.N, _)

/-! ## The arrays the region finds and the blocks of a point, typed as arrays of extended reals -/

abbrev arrA (c : Dev nD) : FVec Ideal S16384x16384 .bf16 := V m c main_v19
abbrev arrX (c : Dev nD) : FVec Ideal S16384x128 .f32 := V m c main_arg0
abbrev arrWT (c : Dev nD) : FVec Ideal S128x128 .f32 := V m c main_v20
abbrev arrBT (c : Dev nD) : FVec Ideal S128x128 .f32 := V m c main_v21
abbrev blk0 (c : Dev nD) (t : Fin cfg0.N) : FVec Ideal S1024x4096 .bf16 := iblk m c 0 t
abbrev blk1 (c : Dev nD) (t : Fin cfg0.N) : FVec Ideal S4096x128 .f32 := iblk m c 1 t
abbrev blk2 (c : Dev nD) (t : Fin cfg0.N) : FVec Ideal S1024x128 .f32 := iblk m c 2 t
abbrev blk3 (c : Dev nD) (t : Fin cfg0.N) : FVec Ideal S128x128 .f32 := iblk m c 3 t
abbrev blk4 (c : Dev nD) (t : Fin cfg0.N) : FVec Ideal S128x128 .f32 := iblk m c 4 t

/-! ## The blocks, entry by entry -/

theorem iblk0_apply (c : Dev nD) (t : Fin cfg0.N) (r : Fin 1024) (j : Fin 4096) (hc : 4096 * (t.val % 4) + j.val < 16384) :
    blk0 m c t (ix2 r j) = arrA m c (ix2 (rowOf (t.val / 4) r) ⟨4096 * (t.val % 4) + j.val, hc⟩) := by
  have hN : t.val < 64 := lt_of_lt_of_eq t.isLt (show cfg0.N = 64 from N_0)
  obtain ⟨e0, e1, -⟩ := idx_facts t
  show iblk m c _ t _ = _
  unfold iblk
  rw [View.read_apply]
  show V m c main_v19 (((cfg0.win 0).blk t).view.emb (ix2 r j)) = _
  refine congrArg (V m c main_v19) (funext fun a => Fin.ext ?_)
  match a with
  | ⟨0, _⟩ =>
    show win0_0.index t (0 : Fin 2) * 1024 + 1 * r.val = (1024 * (t.val / 4) + r.val) % 16384
    rw [e0]; have := r.isLt; omega
  | ⟨1, _⟩ =>
    show win0_0.index t (1 : Fin 2) * 4096 + 1 * j.val = 4096 * (t.val % 4) + j.val
    rw [e1]; omega

theorem iblk1_apply (c : Dev nD) (t : Fin cfg0.N) (j : Fin 4096) (a : Fin 128) (hc : 4096 * (t.val % 4) + j.val < 16384) :
    blk1 m c t (ix2 j a) = arrX m c (ix2 ⟨4096 * (t.val % 4) + j.val, hc⟩ a) := by
  obtain ⟨-, -, e0, e1, -⟩ := idx_facts t
  show iblk m c _ t _ = _
  unfold iblk
  rw [View.read_apply]
  show V m c main_arg0 (((cfg0.win 1).blk t).view.emb (ix2 j a)) = _
  refine congrArg (V m c main_arg0) (funext fun b => Fin.ext ?_)
  match b with
  | ⟨0, _⟩ =>
    show win0_1.index t (0 : Fin 2) * 4096 + 1 * j.val = 4096 * (t.val % 4) + j.val
    rw [e0]; omega
  | ⟨1, _⟩ =>
    show win0_1.index t (1 : Fin 2) * 128 + 1 * a.val = a.val
    rw [e1]; omega

theorem iblk2_apply (c : Dev nD) (t : Fin cfg0.N) (r : Fin 1024) (a : Fin 128) :
    blk2 m c t (ix2 r a) = arrX m c (ix2 (rowOf (t.val / 4) r) a) := by
  have hN : t.val < 64 := lt_of_lt_of_eq t.isLt (show cfg0.N = 64 from N_0)
  obtain ⟨-, -, -, -, e0, e1, -⟩ := idx_facts t
  show iblk m c _ t _ = _
  unfold iblk
  rw [View.read_apply]
  show V m c main_arg0 (((cfg0.win 2).blk t).view.emb (ix2 r a)) = _
  refine congrArg (V m c main_arg0) (funext fun b => Fin.ext ?_)
  match b with
  | ⟨0, _⟩ =>
    show win0_2.index t (0 : Fin 2) * 1024 + 1 * r.val = (1024 * (t.val / 4) + r.val) % 16384
    rw [e0]; have := r.isLt; omega
  | ⟨1, _⟩ =>
    show win0_2.index t (1 : Fin 2) * 128 + 1 * a.val = a.val
    rw [e1]; omega

theorem iblk3_apply (c : Dev nD) (t : Fin cfg0.N) (a b : Fin 128) :
    blk3 m c t (ix2 a b) = arrWT m c (ix2 a b) := by
  obtain ⟨-, -, -, -, -, -, e0, e1, -⟩ := idx_facts t
  show iblk m c _ t _ = _
  unfold iblk
  rw [View.read_apply]
  show V m c main_v20 (((cfg0.win 3).blk t).view.emb (ix2 a b)) = _
  refine congrArg (V m c main_v20) (funext fun d => Fin.ext ?_)
  match d with
  | ⟨0, _⟩ =>
    show win0_3.index t (0 : Fin 2) * 128 + 1 * a.val = a.val
    rw [e0]; omega
  | ⟨1, _⟩ =>
    show win0_3.index t (1 : Fin 2) * 128 + 1 * b.val = b.val
    rw [e1]; omega

theorem iblk4_apply (c : Dev nD) (t : Fin cfg0.N) (a b : Fin 128) :
    blk4 m c t (ix2 a b) = arrBT m c (ix2 a b) := by
  obtain ⟨-, -, -, -, -, -, -, -, e0, e1, -⟩ := idx_facts t
  show iblk m c _ t _ = _
  unfold iblk
  rw [View.read_apply]
  show V m c main_v21 (((cfg0.win 4).blk t).view.emb (ix2 a b)) = _
  refine congrArg (V m c main_v21) (funext fun d => Fin.ext ?_)
  match d with
  | ⟨0, _⟩ =>
    show win0_4.index t (0 : Fin 2) * 128 + 1 * a.val = a.val
    rw [e0]; omega
  | ⟨1, _⟩ =>
    show win0_4.index t (1 : Fin 2) * 128 + 1 * b.val = b.val
    rw [e1]; omega

end Cert.KernelIdeal.Val

end
-- ==== Proof.LibBlockAccumulate.lean ====
/-
  An accumulator over periods of K steps, in any additive commutative monoid.

  Time is cut into periods of K consecutive steps; step n lies in period n / K at position n % K. Each period q has its
  own sequence of values e q 0, e q 1, …. The accumulator is set back to zero at the first step of every period, and
  step n adds to it the L consecutive values of its period's sequence that start at L · (n % K). Then after step n the
  accumulator holds the sum of the first L · (n % K + 1) values of the period's sequence (`accumulate_rows`); after the
  last step of a period it holds the sum of the first L · K values (`accumulate_rows_last`). Two small facts serve the
  statement: a range sum of length L · (k + 1) is the range sum of length L · k followed by one more block of L values
  (`sum_range_block_succ`), and a range sum of a function given on `Fin N`, read through a bound check, is the sum over
  `Fin N` (`range_sum_dite`). Nothing here mentions a program.
-/
import Mathlib.Algebra.BigOperators.Intervals
import Mathlib.Algebra.BigOperators.Fin
import Mathlib.Tactic

namespace Cert.LibBlockAccumulate

open Finset

variable {M : Type*} [AddCommMonoid M]

/-- A range sum of a function given on `Fin N`, read through a bound check, is the sum over `Fin N`. -/
theorem range_sum_dite {N : ℕ} (f : Fin N → M) :
    ∑ j ∈ Finset.range N, (if h : j < N then f ⟨j, h⟩ else 0) = ∑ j : Fin N, f j := by
  rw [Finset.sum_fin_eq_sum_range]

/-- A range sum of length `L * (k + 1)` is the range sum of length `L * k` plus the next block of `L` values. -/
theorem sum_range_block_succ (L k : ℕ) (g : ℕ → M) :
    ∑ j ∈ Finset.range (L * (k + 1)), g j
      = ∑ j ∈ Finset.range (L * k), g j + ∑ j : Fin L, g (L * k + j.val) := by
  rw [Nat.mul_succ, Finset.sum_range_add, Fin.sum_univ_eq_sum_range (fun j => g (L * k + j)) L]

/-- One step back inside a period: when `n` is not at the start of its period, `n - 1` lies in the same period, one
position earlier. -/
theorem pred_div_mod (K n : ℕ) (hK : 0 < K) (h : n % K ≠ 0) :
    (n - 1) / K = n / K ∧ (n - 1) % K = n % K - 1 := by
  have hr : n % K < K := Nat.mod_lt n hK
  have hn : n - 1 = K * (n / K) + (n % K - 1) := by
    have := Nat.div_add_mod n K
    omega
  rw [hn]
  constructor
  · rw [Nat.mul_add_div hK, Nat.div_eq_of_lt (show n % K - 1 < K by omega), Nat.add_zero]
  · rw [Nat.mul_add_mod, Nat.mod_eq_of_lt (show n % K - 1 < K by omega)]

/-- An accumulator that is reset at the start of every period of `K` steps and to which step `n` adds the `L`
consecutive values of its period's sequence starting at `L * (n % K)` holds, after step `n`, the sum of the first
`L * (n % K + 1)` values. -/
theorem accumulate_rows (L K : ℕ) (hK : 0 < K) (e : ℕ → ℕ → M) (A : ℕ → M)
    (hfirst : ∀ n, n % K = 0 → A n = 0 + ∑ j : Fin L, e (n / K) (L * (n % K) + j.val))
    (hnext : ∀ n, n % K ≠ 0 → A n = A (n - 1) + ∑ j : Fin L, e (n / K) (L * (n % K) + j.val)) :
    ∀ n, A n = ∑ j ∈ Finset.range (L * (n % K + 1)), e (n / K) j := by
  intro n
  induction n using Nat.strong_induction_on with
  | _ n ih =>
    by_cases h0 : n % K = 0
    · rw [hfirst n h0, sum_range_block_succ L (n % K) (e (n / K)), h0]
      simp only [Nat.mul_zero, Finset.range_zero, Finset.sum_empty]
    · obtain ⟨hd, hm⟩ := pred_div_mod K n hK h0
      have hlt : n - 1 < n := by
        have hn0 : n ≠ 0 := by
          rintro rfl
          exact h0 (Nat.zero_mod K)
        omega
      have hk : n % K - 1 + 1 = n % K := by omega
      rw [hnext n h0, ih (n - 1) hlt, hd, hm, hk, sum_range_block_succ L (n % K) (e (n / K))]

/-- After the last step of a period the accumulator holds the sum of the first `L * K` values. -/
theorem accumulate_rows_last (L K : ℕ) (hK : 0 < K) (e : ℕ → ℕ → M) (A : ℕ → M)
    (hfirst : ∀ n, n % K = 0 → A n = 0 + ∑ j : Fin L, e (n / K) (L * (n % K) + j.val))
    (hnext : ∀ n, n % K ≠ 0 → A n = A (n - 1) + ∑ j : Fin L, e (n / K) (L * (n % K) + j.val))
    (n : ℕ) (h : n % K = K - 1) :
    A n = ∑ j ∈ Finset.range (L * K), e (n / K) j := by
  have hk : K - 1 + 1 = K := by omega
  rw [accumulate_rows L K hK e A hfirst hnext n, h, hk]

end Cert.LibBlockAccumulate
-- ==== Proof.LibBlockAccumulateFin.lean ====
/-
  The accumulator over periods of K steps, for a run of finitely many steps.

  As in the unbounded statement, step n lies in period n / K at position n % K; the accumulator is set back to zero
  at the first step of every period, and step n adds the L consecutive values of its period's sequence that start at
  L · (n % K). Here the accumulator is only given for the steps n < N of a finite run (a grid of N points), which is
  how a kernel's carried scratch is stated; the conclusion is the same: after step n it holds the sum of the first
  L · (n % K + 1) values of the period's sequence, and at a period's end the sum of the first L · K. Nothing here
  mentions a program.
-/
import proofs.«178954_j30494267802263_1_alg».proof.Proof.LibBlockAccumulate

namespace Cert.LibBlockAccumulateFin

open Finset Cert.LibBlockAccumulate

variable {M : Type*} [AddCommMonoid M]

/-- The accumulator of a run of `N` steps, reset at the start of every period of `K` steps, holds after step `n` the
    sum of the first `L * (n % K + 1)` values of its period's sequence. -/
theorem accumulate_rows_fin (N L K : ℕ) (hK : 0 < K) (e : ℕ → ℕ → M) (A : (n : ℕ) → n < N → M)
    (hfirst : ∀ n (h : n < N), n % K = 0 → A n h = 0 + ∑ j : Fin L, e (n / K) (L * (n % K) + j.val))
    (hnext : ∀ n (h : n < N), n % K ≠ 0 → A n h = A (n - 1) (by omega) + ∑ j : Fin L, e (n / K) (L * (n % K) + j.val)) :
    ∀ n (h : n < N), A n h = ∑ j ∈ Finset.range (L * (n % K + 1)), e (n / K) j := by
  intro n
  induction n using Nat.strong_induction_on with
  | _ n ih =>
    intro h
    by_cases h0 : n % K = 0
    · rw [hfirst n h h0, sum_range_block_succ L (n % K) (e (n / K)), h0]
      simp only [Nat.mul_zero, Finset.range_zero, Finset.sum_empty]
    · obtain ⟨hd, hm⟩ := pred_div_mod K n hK h0
      have hn0 : n ≠ 0 := by
        rintro rfl
        exact h0 (Nat.zero_mod K)
      have hk : n % K - 1 + 1 = n % K := by omega
      rw [hnext n h h0, ih (n - 1) (by omega) (by omega), hd, hm, hk, sum_range_block_succ L (n % K) (e (n / K))]

/-- After the last step of a period it holds the sum of the first `L * K` values. -/
theorem accumulate_rows_fin_last (N L K : ℕ) (hK : 0 < K) (e : ℕ → ℕ → M) (A : (n : ℕ) → n < N → M)
    (hfirst : ∀ n (h : n < N), n % K = 0 → A n h = 0 + ∑ j : Fin L, e (n / K) (L * (n % K) + j.val))
    (hnext : ∀ n (h : n < N), n % K ≠ 0 → A n h = A (n - 1) (by omega) + ∑ j : Fin L, e (n / K) (L * (n % K) + j.val))
    (n : ℕ) (h : n < N) (hl : n % K = K - 1) :
    A n h = ∑ j ∈ Finset.range (L * K), e (n / K) j := by
  have hk : K - 1 + 1 = K := by omega
  rw [accumulate_rows_fin N L K hK e A hfirst hnext n h, hl, hk]

end Cert.LibBlockAccumulateFin
-- ==== Proof.GcnSpec.lean ====
/-
  The mean-aggregating graph convolution as one function of its arrays, entry by entry, over the extended reals.

  A is the dense 0/1 adjacency (row i lists the sources of the edges into node i), X the node features, WT and BT
  the two transposed weight matrices. Row p of the result is
      (1 / max(deg p, 1)) · (A X)_p · WT + X_p · BT,        deg p = Σ_j A(p, j),
  read at column c as the two sums over the 128 features below. The float word for 1.0 is kept as a word: both
  programs spell it the same way, so it is never evaluated here.
-/
import Idealize.ShloMosaic.PureOps.Ideal
import Idealize.ShloMosaic.Lib.ValueIdx

noncomputable section

namespace Cert.GcnSpec

open Idealize.ShloMosaic Idealize.ShloMosaic.ValueIdx

/-- The float word `0x3F800000`, 1.0. -/
abbrev one : EReal := Ideal.ofBits .f32 0x3F800000#32

/-- The in-degree of node `p`: the sum of row `p` of the adjacency. -/
def deg (A : (⟨2, ![16384, 16384]⟩ : Shape).Idx → EReal) (p : Fin 16384) : EReal := ∑ j : Fin 16384, A (ix2 p j)

/-- The aggregated features of node `p`, feature `a`: row `p` of the adjacency times column `a` of the features. -/
def agg (A : (⟨2, ![16384, 16384]⟩ : Shape).Idx → EReal) (X : (⟨2, ![16384, 128]⟩ : Shape).Idx → EReal) (p : Fin 16384) (a : Fin 128) : EReal :=
  ∑ j : Fin 16384, A (ix2 p j) * X (ix2 j a)

/-- The layer's output. -/
def G (A : (⟨2, ![16384, 16384]⟩ : Shape).Idx → EReal) (X : (⟨2, ![16384, 128]⟩ : Shape).Idx → EReal)
    (WT BT : (⟨2, ![128, 128]⟩ : Shape).Idx → EReal) : (⟨2, ![16384, 128]⟩ : Shape).Idx → EReal := fun i =>
  (∑ a : Fin 128, (Ideal.div one (max (deg A (i 0)) one) * agg A X (i 0) a) * WT (ix2 a (i 1)))
    + ∑ a : Fin 128, X (ix2 (i 0) a) * BT (ix2 a (i 1))

end Cert.GcnSpec

end
-- ==== Proof.KiAccum.lean ====
/-
  The accumulators of the graph-convolution kernel after each grid point, as sums over the adjacency's columns.

  The degree accumulator is reset at column tile 0 and gains the adjacency block's row sums at every point; the row
  accumulator likewise gains the block's product with the features' column tile. Each is an accumulator over periods
  of four steps that takes in 4096 consecutive values of its row's sequence per step, so after the point with column
  tile 3 it holds, in row r, the sum over the whole adjacency row: the node's in-degree, and the aggregated features.
-/
import proofs.«178954_j30494267802263_1_alg».proof.Proof.KiBlocks
import proofs.«178954_j30494267802263_1_alg».proof.Proof.LibBlockAccumulateFin
import proofs.«178954_j30494267802263_1_alg».proof.Proof.GcnSpec

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Pay

variable (m : (ℓ : Loc nD τ sig) → Buf (Elt Ideal) ℓ) (ρ : Dev nD → PrngReg)

/-- Row `r` of row tile `q` of the adjacency, as a sequence over the column. -/
def eDeg (c : Dev nD) (r : Fin 1024) (q j : ℕ) : EReal :=
  if h : j < 16384 then arrA m c (ix2 (rowOf q r) ⟨j, h⟩) else 0

/-- The same row times column `a` of the node features, term by term. -/
def eAcc (c : Dev nD) (r : Fin 1024) (a : Fin 128) (q j : ℕ) : EReal :=
  if h : j < 16384 then arrA m c (ix2 (rowOf q r) ⟨j, h⟩) * arrX m c (ix2 ⟨j, h⟩ a) else 0

/-- The block's row sum is the next 4096 terms of the row's sequence. -/
theorem block_deg (c : Dev nD) (t : Fin cfg0.N) (r : Fin 1024) :
    ∑ j : Fin 4096, blk0 m c t (ix2 r j) = ∑ j : Fin 4096, eDeg m c r (t.val / 4) (4096 * (t.val % 4) + j.val) := by
  refine Finset.sum_congr rfl fun j _ => ?_
  have hc : 4096 * (t.val % 4) + j.val < 16384 := by have := j.isLt; omega
  rw [iblk0_apply m c t r j hc]
  unfold eDeg
  rw [dif_pos hc]

/-- The block's product with the features' column tile is the next 4096 terms of the product's sequence. -/
theorem block_acc (c : Dev nD) (t : Fin cfg0.N) (r : Fin 1024) (a : Fin 128) :
    ∑ j : Fin 4096, blk0 m c t (ix2 r j) * blk1 m c t (ix2 j a)
      = ∑ j : Fin 4096, eAcc m c r a (t.val / 4) (4096 * (t.val % 4) + j.val) := by
  refine Finset.sum_congr rfl fun j _ => ?_
  have hc : 4096 * (t.val % 4) + j.val < 16384 := by have := j.isLt; omega
  rw [iblk0_apply m c t r j hc, iblk1_apply m c t j a hc]
  unfold eAcc
  rw [dif_pos hc]

/-- The degree accumulator after point `n`: the first 4096 (n % 4 + 1) terms of its row's sequence. -/
theorem deg_at (c : Dev nD) (r : Fin 1024) : ∀ n (h : n < cfg0.N),
    ((outsAt0 m c n h).2.2 : FVec Ideal S1024x1 .f32) (ix2 r (0 : Fin 1)) = ∑ j ∈ Finset.range (4096 * (n % 4 + 1)), eDeg m c r (n / 4) j :=
  Cert.LibBlockAccumulateFin.accumulate_rows_fin cfg0.N 4096 4 (by norm_num) (eDeg m c r)
    (fun n h => ((outsAt0 m c n h).2.2 : FVec Ideal S1024x1 .f32) (ix2 r (0 : Fin 1)))
    (fun n h h0 => by
      try dsimp only
      rw [outsAt0_A m c ⟨n, h⟩ h0]; unfold stepA; dsimp only
      rw [soutA_1_eq]
      refine (pay4_apply (blk0 m c ⟨n, h⟩) k0_pay2 r 0).trans ?_
      rw [pay2_apply, block_deg m c ⟨n, h⟩ r])
    (fun n h h0 => by
      try dsimp only
      by_cases h1 : n % 4 = 3
      · rw [outsAt0_C m c ⟨n, h⟩ h0 h1]; unfold stepC; dsimp only
        rw [soutC_1_eq]
        refine (pay4_apply (blk0 m c ⟨n, h⟩) _ r 0).trans ?_
        rw [block_deg m c ⟨n, h⟩ r]
      · rw [outsAt0_B m c ⟨n, h⟩ h0 h1]; unfold stepB; dsimp only
        rw [soutB_1_eq]
        refine (pay4_apply (blk0 m c ⟨n, h⟩) _ r 0).trans ?_
        rw [block_deg m c ⟨n, h⟩ r])

/-- The row accumulator after point `n`. -/
theorem acc_at (c : Dev nD) (r : Fin 1024) (a : Fin 128) : ∀ n (h : n < cfg0.N),
    ((outsAt0 m c n h).2.1 : FVec Ideal S1024x128 .f32) (ix2 r a) = ∑ j ∈ Finset.range (4096 * (n % 4 + 1)), eAcc m c r a (n / 4) j :=
  Cert.LibBlockAccumulateFin.accumulate_rows_fin cfg0.N 4096 4 (by norm_num) (eAcc m c r a)
    (fun n h => ((outsAt0 m c n h).2.1 : FVec Ideal S1024x128 .f32) (ix2 r a))
    (fun n h h0 => by
      try dsimp only
      rw [outsAt0_A m c ⟨n, h⟩ h0]; unfold stepA; dsimp only
      rw [soutA_0_eq]
      refine (pay5_apply (blk0 m c ⟨n, h⟩) (blk1 m c ⟨n, h⟩) k0_pay1 r a).trans ?_
      rw [pay1_apply, block_acc m c ⟨n, h⟩ r a])
    (fun n h h0 => by
      try dsimp only
      by_cases h1 : n % 4 = 3
      · rw [outsAt0_C m c ⟨n, h⟩ h0 h1]; unfold stepC; dsimp only
        rw [soutC_0_eq]
        refine (pay5_apply (blk0 m c ⟨n, h⟩) (blk1 m c ⟨n, h⟩) _ r a).trans ?_
        rw [block_acc m c ⟨n, h⟩ r a]
      · rw [outsAt0_B m c ⟨n, h⟩ h0 h1]; unfold stepB; dsimp only
        rw [soutB_0_eq]
        refine (pay5_apply (blk0 m c ⟨n, h⟩) (blk1 m c ⟨n, h⟩) _ r a).trans ?_
        rw [block_acc m c ⟨n, h⟩ r a])

/-- After a point with column tile 3 the degree accumulator holds the in-degrees of the row tile's nodes, -/
theorem deg_last (c : Dev nD) (t : Fin cfg0.N) (h3 : t.val % 4 = 3) (r : Fin 1024) :
    ((outsAt0 m c t.val t.isLt).2.2 : FVec Ideal S1024x1 .f32) (ix2 r (0 : Fin 1)) = Cert.GcnSpec.deg (arrA m c) (rowOf (t.val / 4) r) := by
  rw [deg_at m c r t.val t.isLt, h3]
  show ∑ j ∈ Finset.range 16384, eDeg m c r (t.val / 4) j = _
  unfold eDeg Cert.GcnSpec.deg
  exact Cert.LibBlockAccumulate.range_sum_dite (fun j : Fin 16384 => (arrA m c (ix2 (rowOf (t.val / 4) r) j) : EReal))

/-- and the row accumulator their aggregated features. -/
theorem acc_last (c : Dev nD) (t : Fin cfg0.N) (h3 : t.val % 4 = 3) (r : Fin 1024) (a : Fin 128) :
    ((outsAt0 m c t.val t.isLt).2.1 : FVec Ideal S1024x128 .f32) (ix2 r a) = Cert.GcnSpec.agg (arrA m c) (arrX m c) (rowOf (t.val / 4) r) a := by
  rw [acc_at m c r a t.val t.isLt, h3]
  show ∑ j ∈ Finset.range 16384, eAcc m c r a (t.val / 4) j = _
  unfold eAcc Cert.GcnSpec.agg
  exact Cert.LibBlockAccumulate.range_sum_dite (fun j : Fin 16384 => (arrA m c (ix2 (rowOf (t.val / 4) r) j) * arrX m c (ix2 j a) : EReal))

end Cert.KernelIdeal.Val

end
-- ==== Proof.KiOut.lean ====
/-
  The output buffer after a point with column tile 3, entry by entry: the layer's output row of the row tile's node,
  from the two accumulators just completed and the blocks of the node features and the transposed weights.
-/
import proofs.«178954_j30494267802263_1_alg».proof.Proof.KiAccum
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Pay

variable (m : (ℓ : Loc nD τ sig) → Buf (Elt Ideal) ℓ) (ρ : Dev nD → PrngReg)

/-- The output buffer after a finishing point, entry by entry. -/
theorem out_last (c : Dev nD) (t : Fin cfg0.N) (h3 : t.val % 4 = 3) (r : Fin 1024) (cc : Fin 128) :
    ((outsAt0 m c t.val t.isLt).1 : FVec Ideal S1024x128 .f32) (ix2 r cc)
      = Cert.GcnSpec.G (arrA m c) (arrX m c) (arrWT m c) (arrBT m c) (ix2 (rowOf (t.val / 4) r) cc) := by
  have h0 : ¬t.val % 4 = 0 := by omega
  have e1 : (outsAt0 m c t.val t.isLt).1
      = k0_pay6 (outsAt0 m c t.val t.isLt).2.2 (outsAt0 m c t.val t.isLt).2.1 (blk2 m c t) (blk3 m c t) (blk4 m c t) := by
    rw [outsAt0_C m c t h0 h3]; unfold stepC; dsimp only
    rw [outC_5_eq, soutC_0_eq, soutC_1_eq]
  rw [e1]
  refine (pay6_apply (outsAt0 m c t.val t.isLt).2.2 (outsAt0 m c t.val t.isLt).2.1 (blk2 m c t) (blk3 m c t) (blk4 m c t) r cc).trans ?_
  unfold Cert.GcnSpec.G
  refine congrArg₂ (· + ·) (Finset.sum_congr rfl fun a _ => ?_) (Finset.sum_congr rfl fun a _ => ?_)
  · rw [deg_last m c t h3 r, acc_last m c t h3 r a, iblk3_apply]
  · rw [iblk2_apply, iblk4_apply]

end Cert.KernelIdeal.Val

end
-- ==== Proof.KiFlush.lean ====
/-
  What a point with column tile 3 writes back: its 1024-row block of the layer's output.
-/
import proofs.«178954_j30494267802263_1_alg».proof.Proof.KiOut
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Pay

variable (m : (ℓ : Loc nD τ sig) → Buf (Elt Ideal) ℓ) (ρ : Dev nD → PrngReg)

/-- Block `t` of the result window, read off any array, entry by entry: rows 1024 (t / 4) + r. -/
theorem read_blk5 (Y : FVec Ideal S16384x128 .f32) (t : Fin cfg0.N) (y : ((cfg0.win 5).xblock (cfg0.grid.coords t)).Idx)
    (hy0 : (y 0).val < 1024) (hy1 : (y 1).val < 128) :
    ((cfg0.win 5).blk t).view.read (Elt Ideal) Y y = Y (ix2 (rowOf (t.val / 4) ⟨(y 0).val, hy0⟩) (⟨(y 1).val, hy1⟩ : Fin 128)) := by
  have hN : t.val < 64 := lt_of_lt_of_eq t.isLt (show cfg0.N = 64 from N_0)
  obtain ⟨-, -, -, -, -, -, -, -, -, -, e0, e1⟩ := idx_facts t
  rw [View.read_apply]
  show Y (((cfg0.win 5).blk t).view.emb y) = _
  refine congrArg Y (funext fun a => Fin.ext ?_)
  match a with
  | ⟨0, _⟩ =>
    show win0_5.index t (0 : Fin 2) * 1024 + 1 * (y 0).val = (1024 * (t.val / 4) + (y 0).val) % 16384
    rw [e0]; omega
  | ⟨1, _⟩ =>
    show win0_5.index t (1 : Fin 2) * 128 + 1 * (y 1).val = (y 1).val
    rw [e1]; omega

/-- What a finishing point writes back is its block of the layer's output. -/
theorem flushed_eq (c : Dev nD) (t : Fin cfg0.N) (hf : (cfg0.win 5).flush t = true) :
    (dats m 0 c).flushed 5 t
      = ((cfg0.win 5).blk t).view.read (Elt Ideal) (Cert.GcnSpec.G (arrA m c) (arrX m c) (arrWT m c) (arrBT m c)) := by
  have h3 : t.val % 4 = 3 := (flush0_5 t).mp hf
  show (cfg0.win 5).cut (grid0.coords t) ((dats m 0 c).after 5 t) = _
  rw [after0_5]
  funext y
  have hy0 : (y 0).val < 1024 := (y 0).isLt
  have hy1 : (y 1).val < 128 := (y 1).isLt
  have ecut : ∀ X : FVec Ideal S1024x128 .f32,
      (cfg0.win 5).cut (grid0.coords t) X y = X (ix2 (⟨(y 0).val, hy0⟩ : Fin 1024) (⟨(y 1).val, hy1⟩ : Fin 128)) :=
    fun X => congrArg X (funext fun a => Fin.ext (by match a with | ⟨0, _⟩ => rfl | ⟨1, _⟩ => rfl))
  refine (ecut _).trans ?_
  refine (out_last m c t h3 ⟨(y 0).val, hy0⟩ ⟨(y 1).val, hy1⟩).trans ?_
  exact (read_blk5 (Cert.GcnSpec.G (arrA m c) (arrX m c) (arrWT m c) (arrBT m c)) t y hy0 hy1).symm

end Cert.KernelIdeal.Val

end
-- ==== Proof.KiValue.lean ====
/-
  The kernel's result array. After a point with column tile 3 the output buffer holds, for the row tile's 1024 nodes,
  the layer's output rows: the accumulated rows scaled by the inverse clamped in-degrees, times the first transposed
  weight, plus the nodes' own features times the second. That point's write-back puts them into rows
  1024 (t / 4) … 1024 (t / 4) + 1023 of the result; the sixteen finishing points cover every row, so the result
  array ends as the layer's output of the arrays the region found.
-/
import proofs.«178954_j30494267802263_1_alg».proof.Proof.KiFlush
import Idealize.ShloMosaic.Lib.Pipeline.Value

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Pay

variable (m : (ℓ : Loc nD τ sig) → Buf (Elt Ideal) ℓ) (ρ : Dev nD → PrngReg)

/-- An index of the result is in point `t`'s block iff each coordinate is in the block's range on its axis. -/
theorem mem_blk5 (t : Fin cfg0.N) (i : S16384x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v22).slice (win0_5.rect t)).set ↔ _
  rw [View.set_slice_whole, Rect.mem_set_unit]
  exact Iff.rfl

/-- The result array after the run. -/
theorem final (c : Dev nD) :
    (dats m 0 c).arrAt 5 cfg0.N = Cert.GcnSpec.G (arrA m c) (arrX m c) (arrWT m c) (arrBT m c) :=
  (dats m 0 c).arrAt_eq_of_cover 5 _ (flushed_eq m c) fun i => by
    have hi0 : (i 0).val < 16384 := (i 0).isLt
    have hi1 : (i 1).val < 128 := (i 1).isLt
    have hN : cfg0.N = 64 := N_0
    have ht : 4 * ((i 0).val / 1024) + 3 < cfg0.N := by rw [hN]; omega
    obtain ⟨-, -, -, -, -, -, -, -, -, -, e0, e1⟩ := idx_facts ⟨4 * ((i 0).val / 1024) + 3, ht⟩
    refine ⟨⟨4 * ((i 0).val / 1024) + 3, ht⟩, (flush0_5 _).mpr (by show (4 * ((i 0).val / 1024) + 3) % 4 = 3; omega), ?_⟩
    rw [mem_blk5]
    intro a
    match a with
    | ⟨0, _⟩ =>
      show win0_5.index ⟨4 * ((i 0).val / 1024) + 3, ht⟩ (0 : Fin 2) * 1024 ≤ (i 0).val
        ∧ (i 0).val < win0_5.index ⟨4 * ((i 0).val / 1024) + 3, ht⟩ (0 : Fin 2) * 1024 + 1024
      rw [e0]
      show (4 * ((i 0).val / 1024) + 3) / 4 * 1024 ≤ (i 0).val ∧ (i 0).val < (4 * ((i 0).val / 1024) + 3) / 4 * 1024 + 1024
      omega
    | ⟨1, _⟩ =>
      show win0_5.index ⟨4 * ((i 0).val / 1024) + 3, ht⟩ (1 : Fin 2) * 128 ≤ (i 1).val
        ∧ (i 1).val < win0_5.index ⟨4 * ((i 0).val / 1024) + 3, ht⟩ (1 : Fin 2) * 128 + 128
      rw [e1]; omega

/-- The run, read: the result array at the layer's output, the arguments unchanged. -/
theorem run : θ_run defs (onTc (τ := τ) (main (F := Ideal))) ⟨m, fun _ => 0, ρ⟩ fun r => ∀ c : Dev nD,
      r.2.mem ((c.tc : Thread nD τ).loc main_v22) = Cert.GcnSpec.G (arrA m c) (arrX m c) (arrWT m c) (arrBT m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 5).trans (final m c),
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Val

end
-- ==== Proof.KiArrays.lean ====
/-
  The arrays the kernel region finds, as the reference program's own intermediate arrays.

  Both programs prepare the same operands on the host: the edge list's two rows, negative entries wrapped, joined as
  (destination, source) pairs, scattered as ones into a zero matrix; and the two weight matrices transposed. The
  kernel's adjacency is built in the 16-bit float format, the reference's in the 32-bit one; over the extended reals
  a float is its value whatever its format, and the two words for zero denote 0, the two words for one denote 1, so
  the two scatters are one array.
-/
import proofs.«178954_j30494267802263_1_alg».proof.Proof.KiBlocks
import proofs.«178954_j30494267802263_1_alg».proof.Proof.Gen.ReferenceIdeal.Read
import Idealize.ShloMosaic.Lib.StableHlo.Run

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand Cert.KernelIdeal.Pay

variable (m : (ℓ : Loc nD τ sig) → Buf (Elt Ideal) ℓ) (ρ : Dev nD → PrngReg)

/-- The two spellings of zero and of one denote the same extended reals. -/
theorem zero_words : Ideal.ofBits .bf16 0x0000#16 = Ideal.ofBits .f32 0x00000000#32 := by
  simp [Ideal.ofBits, Ideal.ieee]
theorem one_words : Ideal.ofBits .bf16 0x3F80#16 = Ideal.ofBits .f32 0x3F800000#32 := by
  simp [Ideal.ofBits, Ideal.ieee, -EReal.coe_mul]
  norm_num

set_option maxHeartbeats 4000000 in
/-- A scatter depends only on its operands' values. -/
theorem scatter_congr {s si u : Shape} {w : Nat} {α : Type} (d d' : ScatterDims s si u) (hd : d = d') (f : α → α → α)
    (x x' : s.Idx → α) (hx : x = x') (idx : IVec si w) (upd upd' : u.Idx → α) (hu : upd = upd') :
    Host.scatter d f x idx upd = Host.scatter d' f x' idx upd' := by
  subst hd hx hu; rfl

/-- The kernel's adjacency as the host computes it: the scatter of the 16-bit one into the 16-bit zero matrix at the
    reference's own index pairs. -/
theorem arrA_term (c : Dev nD) :
    arrA m c = Host.scatter scatter_S16384x16384_S524288x2_S524288_n_01_01_1 (fun _ b => b)
      (broadcastInDim S16384x16384 ![] bcast_S_S16384x16384 (constant (F := Ideal) S_ .bf16 0x0000#16))
      (Cert.ReferenceIdeal.Read.val_main_v17 (F := Ideal) (m ((c : Thread nD τ).loc main_arg1)))
      (broadcastInDim S524288 ![] bcast_S_S524288 (constant (F := Ideal) S_ .bf16 0x3F80#16)) := by
  dsimp only [arrA, V, hostOps0]
  after_results_simp
  rfl

/-- It is the reference's adjacency. -/
theorem arrA_eq (c : Dev nD) :
    arrA m c = Cert.ReferenceIdeal.Read.val_main_v19 (F := Ideal) (m ((c : Thread nD τ).loc main_arg1)) := by
  rw [arrA_term]
  unfold Cert.ReferenceIdeal.Read.val_main_v19 Cert.ReferenceIdeal.Read.val_main_v4 Cert.ReferenceIdeal.Read.val_main_v18
    Cert.ReferenceIdeal.Read.val_main_cst Cert.ReferenceIdeal.Read.val_main_cst_3
  have h0 : (broadcastInDim S16384x16384 ![] bcast_S_S16384x16384 (constant (F := Ideal) S_ .bf16 0x0000#16) : S16384x16384.Idx → EReal)
      = broadcastInDim Cert.ReferenceIdeal.S16384x16384 ![] Cert.ReferenceIdeal.Facts₀.bcast_S_S16384x16384 (constant (F := Ideal) Cert.ReferenceIdeal.S_ .f32 0x00000000#32) :=
    funext fun i => zero_words
  have h1 : (broadcastInDim S524288 ![] bcast_S_S524288 (constant (F := Ideal) S_ .bf16 0x3F80#16) : S524288.Idx → EReal)
      = broadcastInDim Cert.ReferenceIdeal.S524288 ![] Cert.ReferenceIdeal.Facts₀.bcast_S_S524288 (constant (F := Ideal) Cert.ReferenceIdeal.S_ .f32 0x3F800000#32) :=
    funext fun i => one_words
  exact scatter_congr (α := EReal) _ _ rfl _ _ _ h0 _ _ _ h1

/-- The transposed weights are the reference's. -/
theorem arrWT_eq (c : Dev nD) :
    arrWT m c = Cert.ReferenceIdeal.Read.val_main_v29 (F := Ideal) (m ((c : Thread nD τ).loc main_arg2)) := by
  dsimp only [arrWT, V, hostOps0]
  after_results
  rfl

theorem arrBT_eq (c : Dev nD) :
    arrBT m c = Cert.ReferenceIdeal.Read.val_main_v31 (F := Ideal) (m ((c : Thread nD τ).loc main_arg3)) := by
  dsimp only [arrBT, V, hostOps0]
  after_results
  rfl

/-- The node features are the argument as launched. -/
theorem arrX_eq (c : Dev nD) : arrX m c = m ((c : Thread nD τ).loc main_arg0) := V_main_arg0 m c

end Cert.KernelIdeal.Val

end
-- ==== Proof.RefValue.lean ====
/-
  The reference program's result, entry by entry, is the mean-aggregating graph convolution of its arrays: the
  in-degrees are the row sums of the scattered adjacency (from the zero word), clamped below by 1 and inverted;
  the aggregated features are the adjacency times the node features; each row is scaled, multiplied by the first
  transposed weight and added to the node features times the second transposed weight.
-/
import proofs.«178954_j30494267802263_1_alg».proof.Proof.Gen.ReferenceIdeal.Read
import proofs.«178954_j30494267802263_1_alg».proof.Proof.GcnSpec

noncomputable section

namespace Cert.ReferenceIdeal.RefVal

open Idealize.ShloMosaic Idealize.ShloMosaic.ValueIdx
open Cert.ReferenceIdeal Cert.ReferenceIdeal.Gen Cert.ReferenceIdeal.Read

theorem lidx26 (p : Fin 16384) (cc : Fin 128) (k : Fin 16384) : lidx_main_v26 (ix2 p cc) k = ix2 p k :=
  funext fun a => Fin.ext (by match a with | ⟨0, _⟩ => rfl | ⟨1, _⟩ => rfl)
theorem ridx26 (p : Fin 16384) (cc : Fin 128) (k : Fin 16384) : ridx_main_v26 (ix2 p cc) k = ix2 k cc :=
  funext fun a => Fin.ext (by match a with | ⟨0, _⟩ => rfl | ⟨1, _⟩ => rfl)
theorem idx20 (p : Fin 16384) (k : Fin 16384) : idx_main_v20 (ix1 p) k = ix2 p k :=
  funext fun a => Fin.ext (by match a with | ⟨0, _⟩ => rfl | ⟨1, _⟩ => rfl)
theorem lidx30 (p : Fin 16384) (cc : Fin 128) (k : Fin 128) : lidx_main_v30 (ix2 p cc) k = ix2 p k :=
  funext fun a => Fin.ext (by match a with | ⟨0, _⟩ => rfl | ⟨1, _⟩ => rfl)
theorem ridx30 (p : Fin 16384) (cc : Fin 128) (k : Fin 128) : ridx_main_v30 (ix2 p cc) k = ix2 k cc :=
  funext fun a => Fin.ext (by match a with | ⟨0, _⟩ => rfl | ⟨1, _⟩ => rfl)
theorem lidx32 (p : Fin 16384) (cc : Fin 128) (k : Fin 128) : lidx_main_v32 (ix2 p cc) k = ix2 p k :=
  funext fun a => Fin.ext (by match a with | ⟨0, _⟩ => rfl | ⟨1, _⟩ => rfl)
theorem ridx32 (p : Fin 16384) (cc : Fin 128) (k : Fin 128) : ridx_main_v32 (ix2 p cc) k = ix2 k cc :=
  funext fun a => Fin.ext (by match a with | ⟨0, _⟩ => rfl | ⟨1, _⟩ => rfl)
theorem idx27_25 (p : Fin 16384) (a : Fin 128) : idx_main_v25 (idx_main_v27 (ix2 p a)) = ix1 p :=
  funext fun d => Fin.ext (by match d with | ⟨0, _⟩ => rfl)

/-- The reference's result is the layer's output of the scattered adjacency, the node features and the two transposed
    weights. -/
theorem ref_is_G (x0 : (⟨S16384x128, .f32⟩ : BufTy).Contents (Elt Ideal)) (x1 : (⟨S2x524288, .i32⟩ : BufTy).Contents (Elt Ideal))
    (x2 x3 : (⟨S128x128, .f32⟩ : BufTy).Contents (Elt Ideal)) :
    val_main_v33 (F := Ideal) x0 x1 x2 x3
      = Cert.GcnSpec.G (val_main_v19 (F := Ideal) x1) x0 (val_main_v29 (F := Ideal) x2) (val_main_v31 (F := Ideal) x3) := by
  funext i
  obtain ⟨p, cc, rfl⟩ : ∃ (p : Fin 16384) (cc : Fin 128), i = ix2 p cc := ⟨i 0, i 1, eq_ix2 i⟩
  rw [val_main_v33_apply, val_main_v30_apply, val_main_v32_apply]
  unfold Cert.GcnSpec.G
  show _ + _ = _ + _
  refine congrArg₂ (· + ·) (Finset.sum_congr rfl fun a _ => ?_) (Finset.sum_congr rfl fun a _ => ?_)
  · rw [lidx30, ridx30, val_main_v28_apply, val_main_v27_apply, val_main_v25_apply, idx27_25, val_main_v24_apply, val_main_v23_apply,
      val_main_cst_6_apply, val_main_v22_apply, val_main_v21_apply, val_main_cst_5_apply, val_main_v20_apply, val_main_cst_4_apply,
      val_main_v26_apply]
    simp only [idx20, lidx26, ridx26, Ideal.ofBits_def, Ideal.mulf_def, Ideal.maximumf_def, Ideal.hostDivf_def, Ideal.ofBits_zero_f32, zero_add]
    rfl
  · rw [lidx32, ridx32]

end Cert.ReferenceIdeal.RefVal

end
-- ==== Proof.lean ====
/-
  The mean-aggregating graph convolution: a Pallas kernel over a 16 x 4 grid against its jnp reference.

  Both programs scatter the edge list into a dense 0/1 adjacency A and transpose the two weight matrices W and B on
  the host. The kernel then walks A's 1024 x 4096 tiles: along a row tile it accumulates the tiles' row sums (the
  in-degrees) and their products with the matching rows of the node features X (the aggregated features), and at the
  last column tile it stores, for the row tile's nodes,
      (1 / max(deg, 1)) · (A X) · Wᵀ + X · Bᵀ.
  The reference computes the same expression with whole-array sums. Over the extended reals a sum taken tile by tile
  is the whole sum (addition is associative and commutative there, infinities included), a change of float format is
  the identity and the kernel's 16-bit zero and one denote the reference's 32-bit zero and one, so the two results
  agree entry by entry; no finiteness of the inputs is used.

  The node features reach the kernel through two input windows on one array, so the frame of each kernel program
  (the word-level one and its idealization) is proved here from the body's three control cases and the division of
  that array's buffer between the two windows; the reference's frame is its generated run. The ideal pass rewrote
  nothing, so the idealization claim is trivial.
-/
import proofs.«178954_j30494267802263_1_alg».proof.Defs
import proofs.«178954_j30494267802263_1_alg».proof.Proof.Gen.Kernel
import proofs.«178954_j30494267802263_1_alg».proof.Proof.Gen.KernelIdeal
import proofs.«178954_j30494267802263_1_alg».proof.Proof.Gen.ReferenceIdeal
import proofs.«178954_j30494267802263_1_alg».proof.Proof.Gen.Pre_finite_inputs
import proofs.«178954_j30494267802263_1_alg».proof.Proof.Gen.ReferenceIdeal.Run
import proofs.«178954_j30494267802263_1_alg».proof.Proof.Gen.ReferenceIdeal.Read
import proofs.«178954_j30494267802263_1_alg».proof.Proof.KFrame
import proofs.«178954_j30494267802263_1_alg».proof.Proof.KiValue
import proofs.«178954_j30494267802263_1_alg».proof.Proof.KiArrays
import proofs.«178954_j30494267802263_1_alg».proof.Proof.RefValue
import Idealize.ShloMosaic.Adequacy
import Idealize.ShloMosaic.Init

noncomputable section

namespace Cert.Proof

open Idealize.ShloMosaic Idealize.SL.Sem

/-- The word-level kernel program runs to its end and leaves its four arguments as launched. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals both programs end with the layer's output of the same adjacency, node features and
    transposed weights. -/
theorem algebraic : Cert.algebraic_KernelIdeal_ReferenceIdeal := by
  intro m ρ m' ρ' _ hagree
  refine ⟨fun c => Cert.GcnSpec.G (Cert.KernelIdeal.Val.arrA m c) (Cert.KernelIdeal.Val.arrX m c) (Cert.KernelIdeal.Val.arrWT m c)
    (Cert.KernelIdeal.Val.arrBT m c), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefVal.ref_is_G, (hagree c).1, (hagree c).2.1, (hagree c).2.2.1,
    (hagree c).2.2.2]
  show _ = Cert.GcnSpec.G (Cert.KernelIdeal.Val.arrA m c) (Cert.KernelIdeal.Val.arrX m c) (Cert.KernelIdeal.Val.arrWT m c)
    (Cert.KernelIdeal.Val.arrBT m c)
  rw [Cert.KernelIdeal.Val.arrA_eq, Cert.KernelIdeal.Val.arrWT_eq, Cert.KernelIdeal.Val.arrBT_eq, Cert.KernelIdeal.Val.arrX_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
